-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩

abbrev nBuf : Space → Nat
  | .hbm => 66
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000x128, .f32⟩
  | .hbm, ⟨41, _⟩ => ⟨S_, .f32⟩
  | .hbm, ⟨42, _⟩ => ⟨S50000x128, .f32⟩
  | .hbm, ⟨43, _⟩ => ⟨S850000x1, .i32⟩
  | .hbm, ⟨44, _⟩ => ⟨S50000x128, .f32⟩
  | .hbm, ⟨45, _⟩ => ⟨S50000x1, .f32⟩
  | .hbm, ⟨46, _⟩ => ⟨S1x128, .f32⟩
  | .hbm, ⟨47, _⟩ => ⟨S50000x128, .f32⟩
  | .hbm, ⟨48, _⟩ => ⟨S50000x1, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S50000x1, .f32⟩
  | .hbm, ⟨64, _⟩ => ⟨S1x128, .f32⟩
  | .hbm, ⟨65, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v33) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v43) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 116
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .i1⟩
  | .hbm, ⟨69, _⟩ => ⟨S_, .f32⟩
  | .hbm, ⟨70, _⟩ => ⟨S50000x128, .f32⟩
  | .hbm, ⟨71, _⟩ => ⟨S50000x128, .i1⟩
  | .hbm, ⟨72, _⟩ => ⟨S_, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000x128, .f32⟩
  | .hbm, ⟨91, _⟩ => ⟨S850000x1, .f32⟩
  | .hbm, ⟨92, _⟩ => ⟨S850000x128, .f32⟩
  | .hbm, ⟨93, _⟩ => ⟨S850000x128, .f32⟩
  | .hbm, ⟨94, _⟩ => ⟨S_, .f32⟩
  | .hbm, ⟨95, _⟩ => ⟨S50000x128, .f32⟩
  | .hbm, ⟨96, _⟩ => ⟨S850000x1, .i32⟩
  | .hbm, ⟨97, _⟩ => ⟨S50000x128, .f32⟩
  | .hbm, ⟨98, _⟩ => ⟨S1x128, .f32⟩
  | .hbm, ⟨99, _⟩ => ⟨S50000x128, .f32⟩
  | .hbm, ⟨100, _⟩ => ⟨S50000x128, .f32⟩
  | .hbm, ⟨101, _⟩ => ⟨S_, .f32⟩
  | .hbm, ⟨102, _⟩ => ⟨S50000x128, .f32⟩
  | .hbm, ⟨103, _⟩ => ⟨S50000x128, .i1⟩
  | .hbm, ⟨104, _⟩ => ⟨S_, .f32⟩
  | .hbm, ⟨105, _⟩ => ⟨S50000x128, .f32⟩
  | .hbm, ⟨106, _⟩ => ⟨S50000x128, .i1⟩
  | .hbm, ⟨107, _⟩ => ⟨S_, .f32⟩
  | .hbm, ⟨108, _⟩ => ⟨S_, .f32⟩
  | .hbm, ⟨109, _⟩ => ⟨S50000x128, .f32⟩
  | .hbm, ⟨110, _⟩ => ⟨S50000x128, .f32⟩
  | .hbm, ⟨111, _⟩ => ⟨S50000x128, .f32⟩
  | .hbm, ⟨112, _⟩ => ⟨S_, .f32⟩
  | .hbm, ⟨113, _⟩ => ⟨S50000x128, .f32⟩
  | .hbm, ⟨114, _⟩ => ⟨S50000x128, .f32⟩
  | .hbm, ⟨115, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_cst_0 : Ref sig .tc := ⟨.hbm, 69, rfl⟩
abbrev main_call1_v2 : Ref sig .tc := ⟨.hbm, 70, rfl⟩
abbrev main_call1_v3 : Ref sig .tc := ⟨.hbm, 71, rfl⟩
abbrev main_call1_cst_1 : Ref sig .tc := ⟨.hbm, 72, rfl⟩
abbrev main_call1_call0_v0 : Ref sig .tc := ⟨.hbm, 73, rfl⟩
abbrev main_call1_call0_v1 : Ref sig .tc := ⟨.hbm, 74, rfl⟩
abbrev main_call1_v4 : Ref sig .tc := ⟨.hbm, 75, rfl⟩
abbrev main_call1_v5 : Ref sig .tc := ⟨.hbm, 76, rfl⟩
abbrev main_call1_cst_2 : Ref sig .tc := ⟨.hbm, 77, rfl⟩
abbrev main_call1_v6 : Ref sig .tc := ⟨.hbm, 78, rfl⟩
abbrev main_call1_v7 : Ref sig .tc := ⟨.hbm, 79, rfl⟩
abbrev main_v47 : Ref sig .tc := ⟨.hbm, 80, rfl⟩
abbrev main_v48 : Ref sig .tc := ⟨.hbm, 81, rfl⟩
abbrev main_c_9 : Ref sig .tc := ⟨.hbm, 82, rfl⟩
abbrev main_v49 : Ref sig .tc := ⟨.hbm, 83, rfl⟩
abbrev main_v50 : Ref sig .tc := ⟨.hbm, 84, rfl⟩
abbrev main_c_10 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_11 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_call2_cst : Ref sig .tc := ⟨.hbm, 101, rfl⟩
abbrev main_call2_v0 : Ref sig .tc := ⟨.hbm, 102, rfl⟩
abbrev main_call2_v1 : Ref sig .tc := ⟨.hbm, 103, rfl⟩
abbrev main_call2_cst_0 : Ref sig .tc := ⟨.hbm, 104, rfl⟩
abbrev main_call2_v2 : Ref sig .tc := ⟨.hbm, 105, rfl⟩
abbrev main_call2_v3 : Ref sig .tc := ⟨.hbm, 106, rfl⟩
abbrev main_call2_cst_1 : Ref sig .tc := ⟨.hbm, 107, rfl⟩
abbrev main_call2_call0_v0 : Ref sig .tc := ⟨.hbm, 108, rfl⟩
abbrev main_call2_call0_v1 : Ref sig .tc := ⟨.hbm, 109, rfl⟩
abbrev main_call2_v4 : Ref sig .tc := ⟨.hbm, 110, rfl⟩
abbrev main_call2_v5 : Ref sig .tc := ⟨.hbm, 111, rfl⟩
abbrev main_call2_cst_2 : Ref sig .tc := ⟨.hbm, 112, rfl⟩
abbrev main_call2_v6 : Ref sig .tc := ⟨.hbm, 113, rfl⟩
abbrev main_call2_v7 : Ref sig .tc := ⟨.hbm, 114, rfl⟩
abbrev main_v65 : Ref sig .tc := ⟨.hbm, 115, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KerTerm.lean ====
/-
  The kernel program's result as ONE term of its argument arrays at the exact values. The two kernels are read as
  whole-array functions: `mmScale h W d` is the product h·W with row i scaled by d i, and `postElu a d b` is
  elu(a · d (per row) + b (per column)) with elu(v) = v for v > 0 and exp(min(v, 0)) − 1 otherwise. Between them the
  host gathers row `src e` of the scaled product for every edge `e` and sums what arrives at each node.
-/
import proofs.«143881_j43413529428079_2_alg».proof.KernelIdeal
import Idealize.ShloMosaic.PureOps.Ideal
import Idealize.ShloMosaic.Lib.ValueIdx

noncomputable section

namespace Cert.KernelIdeal.Term

open Idealize.ShloMosaic Idealize.ShloMosaic.ValueIdx Cert.KernelIdeal Cert.KernelIdeal.Facts₀

/-- The contents of a tensor value of shape `s` and element type `e`, at the exact values. -/
abbrev Ten (s : Shape) (e : EltTy) : Type := (⟨s, e⟩ : BufTy).Contents (Elt Ideal)

/-! ## The two kernels as whole-array functions -/

/-- Entry (p, q) of (h·W) with row p scaled by d p. -/
def mmScaleAt (h : S50000x128.Idx → EReal) (W : S128x128.Idx → EReal) (d : S50000x1.Idx → EReal) (p : Fin 50000) (q : Fin 128) : EReal :=
  (∑ k : Fin 128, h (ix2 p k) * W (ix2 k q)) * d (ix2 p (0 : Fin 1))

/-- (h·W) with every row scaled. -/
def mmScale (h : S50000x128.Idx → Elt Ideal .f32) (W : S128x128.Idx → Elt Ideal .f32) (d : S50000x1.Idx → Elt Ideal .f32) :
    S50000x128.Idx → Elt Ideal .f32 := fun j => mmScaleAt h W d (j 0) (j 1)

/-- elu as the kernel spells it: v where v > 0, else exp(min(v, 0)) − 1 (the words 0.0 and 1.0 kept as words). -/
def eluK (v : EReal) : EReal :=
  Scalar.select (FloatOps.cmpf (F := Ideal) (φ := .f32) .ogt v (Ideal.ofBits .f32 0x00000000#32)) v
    (Ideal.exp (min v (Ideal.ofBits .f32 0x00000000#32)) - Ideal.ofBits .f32 0x3F800000#32)

/-- Entry (p, q) of elu(a · d + b). -/
def postEluAt (a : S50000x128.Idx → EReal) (d : S50000x1.Idx → EReal) (b : S1x128.Idx → EReal) (p : Fin 50000) (q : Fin 128) : EReal :=
  eluK (a (ix2 p q) * d (ix2 p (0 : Fin 1)) + b (ix2 (0 : Fin 1) q))

/-- elu(a · d + b), d per row and b per column. -/
def postElu (a : S50000x128.Idx → Elt Ideal .f32) (d : S50000x1.Idx → Elt Ideal .f32) (b : S1x128.Idx → Elt Ideal .f32) :
    S50000x128.Idx → Elt Ideal .f32 := fun j => postEluAt a d b (j 0) (j 1)

/-! ## The host side -/

variable [Facts]

/-- Row `r` of the edge list followed by the node ids 0 … N-1 (one self loop per node). -/
def rowW (r : Nat) (h : S2x800000.Slices ![r, 0] S1x800000) (ei : Ten S2x800000 .i32) : Ten S850000 .i32 :=
  concatenate S850000 0 [⟨S800000, shapeCast S800000 (extractStridedSlice S1x800000 ![r, 0] ei h) shapeCasts_S1x800000_S800000⟩,
    ⟨S50000, iotaInDim S50000 32 0⟩] concatenates_S800000_S50000_S850000_d0

/-- The edges' source words. -/
def srcW (ei : Ten S2x800000 .i32) : Ten S850000 .i32 := rowW 0 slices_S2x800000_S1x800000_0_0 ei
/-- The edges' destination words. -/
def dstW (ei : Ten S2x800000 .i32) : Ten S850000 .i32 := rowW 1 slices_S2x800000_S1x800000_1_0 ei

/-- A vector of index words kept as a column. -/
def col (v : Ten S850000 .i32) : Ten S850000x1 .i32 := broadcastInDim S850000x1 ![0] bcast_S850000_S850000x1_0 v

/-- A negative index word counts from the end: w + N when w < 0. -/
def normW (v : Ten S850000 .i32) : Ten S850000 .i32 :=
  select (cmpi .slt v (broadcastInDim S850000 ![] bcast_S_S850000 (constantI S_ 32 0#32)))
    (addi v (broadcastInDim S850000 ![] bcast_S_S850000 (constantI S_ 32 50000#32))) v

def zerosN : Ten S50000 .f32 := broadcastInDim S50000 ![] bcast_S_S50000 (constant (F := Ideal) S_ .f32 0x00000000#32)
def zerosNC : Ten S50000x128 .f32 := broadcastInDim S50000x128 ![] bcast_S_S50000x128 (constant (F := Ideal) S_ .f32 0x00000000#32)

/-- The number of edges ending at each node: a one added per edge. -/
def degV (ei : Ten S2x800000 .i32) : Ten S50000 .f32 :=
  Host.scatterAdd (F := Ideal) (φ := .f32) scatter_S50000_S850000x1_S850000_n_0_0_1 zerosN (col (dstW ei))
    (broadcastInDim S850000 ![] bcast_S_S850000 (constant (F := Ideal) S_ .f32 0x3F800000#32))

/-- max(deg, 1)^(-1/2) where deg > 0, else 0. -/
def dinvV (ei : Ten S2x800000 .i32) : Ten S50000 .f32 :=
  select (cmpf (F := Ideal) (φ := .f32) .ogt (degV ei) zerosN)
    (Host.rsqrt (F := Ideal) (φ := .f32) (maximumf (F := Ideal) (φ := .f32) (degV ei) (broadcastInDim S50000 ![] bcast_S_S50000 (constant (F := Ideal) S_ .f32 0x3F800000#32))))
    (broadcastInDim S50000 ![] bcast_S_S50000 (id (constant (F := Ideal) S_ .f32 0x00000000#32)))

/-- dinv kept as a column. -/
def dcol (ei : Ten S2x800000 .i32) : Ten S50000x1 .f32 := shapeCast S50000x1 (dinvV ei) shapeCasts_S50000_S50000x1

/-- What arrives at each node: row `src e` of `hs` along every edge `e`, summed at `dst e`. -/
def aggV (ei : Ten S2x800000 .i32) (hs : Ten S50000x128 .f32) : Ten S50000x128 .f32 :=
  Host.scatterAdd (F := Ideal) (φ := .f32) scatter_S50000x128_S850000x1_S850000x128_1_0_0_1 zerosNC (col (dstW ei))
    (Host.gather gather_S50000x128_S850000x1_S850000x128_1_0_n_n_0_1_1128 hs (col (normW (srcW ei))))

/-- One layer. -/
def layerV (ei : Ten S2x800000 .i32) (h : Ten S50000x128 .f32) (W : Ten S128x128 .f32) (b : Ten S128 .f32) : Ten S50000x128 .f32 :=
  postElu (aggV ei (mmScale h W (dcol ei))) (dcol ei) (shapeCast S1x128 b shapeCasts_S128_S1x128)

/-- The kernel program's result: two layers. -/
def kerOut (x : Ten S50000x128 .f32) (ei : Ten S2x800000 .i32) (W1 : Ten S128x128 .f32) (b1 : Ten S128 .f32)
    (W2 : Ten S128x128 .f32) (b2 : Ten S128 .f32) : Ten S50000x128 .f32 :=
  layerV ei (layerV ei x W1 b1) W2 b2

end Cert.KernelIdeal.Term

end
-- ==== Proof.KerHost.lean ====
/-
  The host side of the kernel program, read at the exact values. Between the launch and the return the program's arrays
  pass through ten boundaries: a stretch of host operations, or one of the four kernels, lies between consecutive ones.
  Here every value a kernel reads, and every value the host computes from a kernel's output, is named as a term of the
  launch arrays: the edge words with their self loops, the degree scale max(deg, 1)^(-1/2) and its column form, the
  biases as rows, and the sum over incoming edges of a kernel's output (stated for whatever that output is). A value
  defined at one boundary is carried unchanged across every later stretch that does not define it again and every kernel
  that does not own it.
-/
import proofs.«143881_j43413529428079_2_alg».proof.Proof.Gen.KernelIdeal.Frame
import proofs.«143881_j43413529428079_2_alg».proof.Proof.KerTerm
import Idealize.ShloMosaic.Lib.StableHlo.Run

noncomputable section

namespace Cert.KernelIdeal.Val

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (ρ : Dev nD → PrngReg) (c : Dev nD)

/-! ## What each host stretch writes -/

/-- The values the first stretch of host operations defines. -/
def wr0 : List (Ref sig .tc) :=
  [main_v0, main_v1, main_v2, main_v3, main_v4, main_v5, main_v6, main_cst, main_v7, main_cst_0, main_v8, main_v9, main_v10,
    main_cst_1, main_v11, main_v12, main_cst_2, main_v13, main_v14, main_v15, main_cst_3]
/-- The values the call of the select function defines. -/
def wr0_1 : List (Ref sig .tc) := [main_call0_v0, main_call0_v1, main_v16]
/-- The column of scales read by the first kernel. -/
def wr0_2 : List (Ref sig .tc) := [main_v17]
/-- The values defined between the first and the second kernel. -/
def wr1 : List (Ref sig .tc) :=
  [main_c, main_v19, main_v20, main_c_4, main_v21, main_v22, main_v23, main_v24, main_v25, main_cst_5, main_v26, main_v27, main_v28,
    main_v29, main_v30]
/-- The column of scales read by the third kernel. -/
def wr2 : List (Ref sig .tc) := [main_v32]
/-- The values defined between the third and the fourth kernel. -/
def wr3 : List (Ref sig .tc) :=
  [main_c_6, main_v34, main_v35, main_c_7, main_v36, main_v37, main_v38, main_v39, main_v40, main_cst_8, main_v41, main_v42, main_v43,
    main_v44, main_v45]

set_option maxHeartbeats 400000 in
theorem hwr0 : (hostOps0 : List (HloOp τ sig (Elt Ideal))).Forall fun op => op.writes ⊆ (wr0.map (Proc.devRef (τ := τ) .tc)).toFinset := by
  simp only [hostOps0, List.Forall, StableHlo.nullary_writes, StableHlo.unary_writes, StableHlo.binary_writes, StableHlo.ternary_writes,
    StableHlo.reshape_writes, Finset.singleton_subset_iff]
  repeat' apply And.intro
  all_goals exact List.mem_toFinset.mpr (List.mem_map_of_mem (by decide))
set_option maxHeartbeats 400000 in
theorem hwr0_1 : (hostOps0_1 : List (HloOp τ sig (Elt Ideal))).Forall fun op => op.writes ⊆ (wr0_1.map (Proc.devRef (τ := τ) .tc)).toFinset := by
  simp only [hostOps0_1, List.Forall, StableHlo.nullary_writes, StableHlo.unary_writes, StableHlo.binary_writes, StableHlo.ternary_writes,
    StableHlo.reshape_writes, Finset.singleton_subset_iff]
  repeat' apply And.intro
  all_goals exact List.mem_toFinset.mpr (List.mem_map_of_mem (by decide))
set_option maxHeartbeats 400000 in
theorem hwr0_2 : (hostOps0_2 : List (HloOp τ sig (Elt Ideal))).Forall fun op => op.writes ⊆ (wr0_2.map (Proc.devRef (τ := τ) .tc)).toFinset := by
  simp only [hostOps0_2, List.Forall, StableHlo.nullary_writes, StableHlo.unary_writes, StableHlo.binary_writes, StableHlo.ternary_writes,
    StableHlo.reshape_writes, Finset.singleton_subset_iff]
  exact List.mem_toFinset.mpr (List.mem_map_of_mem (by decide))
set_option maxHeartbeats 400000 in
theorem hwr1 : (hostOps1 : List (HloOp τ sig (Elt Ideal))).Forall fun op => op.writes ⊆ (wr1.map (Proc.devRef (τ := τ) .tc)).toFinset := by
  simp only [hostOps1, List.Forall, StableHlo.nullary_writes, StableHlo.unary_writes, StableHlo.binary_writes, StableHlo.ternary_writes,
    StableHlo.reshape_writes, Finset.singleton_subset_iff]
  repeat' apply And.intro
  all_goals exact List.mem_toFinset.mpr (List.mem_map_of_mem (by decide))
set_option maxHeartbeats 400000 in
theorem hwr2 : (hostOps2 : List (HloOp τ sig (Elt Ideal))).Forall fun op => op.writes ⊆ (wr2.map (Proc.devRef (τ := τ) .tc)).toFinset := by
  simp only [hostOps2, List.Forall, StableHlo.nullary_writes, StableHlo.unary_writes, StableHlo.binary_writes, StableHlo.ternary_writes,
    StableHlo.reshape_writes, Finset.singleton_subset_iff]
  exact List.mem_toFinset.mpr (List.mem_map_of_mem (by decide))
set_option maxHeartbeats 400000 in
theorem hwr3 : (hostOps3 : List (HloOp τ sig (Elt Ideal))).Forall fun op => op.writes ⊆ (wr3.map (Proc.devRef (τ := τ) .tc)).toFinset := by
  simp only [hostOps3, List.Forall, StableHlo.nullary_writes, StableHlo.unary_writes, StableHlo.binary_writes, StableHlo.ternary_writes,
    StableHlo.reshape_writes, Finset.singleton_subset_iff]
  repeat' apply And.intro
  all_goals exact List.mem_toFinset.mpr (List.mem_map_of_mem (by decide))

/-! ## A value no operation of a stretch defines is the same after it -/

theorem P1 (r : Ref sig .tc) (h : r ∉ wr0) : W1 m ρ c (Proc.devRef .tc r) = W0 m ρ c (Proc.devRef .tc r) :=
  StableHlo.after_of_writes_sub hostOps0 _ hwr0 h
theorem P2 (r : Ref sig .tc) (h : r ∉ wr0_1) : W2 m ρ c (Proc.devRef .tc r) = W1 m ρ c (Proc.devRef .tc r) :=
  StableHlo.after_of_writes_sub hostOps0_1 _ hwr0_1 h
theorem P3 (r : Ref sig .tc) (h : r ∉ wr0_2) : W3 m ρ c (Proc.devRef .tc r) = W2 m ρ c (Proc.devRef .tc r) :=
  StableHlo.after_of_writes_sub hostOps0_2 _ hwr0_2 h
theorem P5 (r : Ref sig .tc) (h : r ∉ wr1) : W5 m ρ c (Proc.devRef .tc r) = W4 m ρ c (Proc.devRef .tc r) :=
  StableHlo.after_of_writes_sub hostOps1 _ hwr1 h
theorem P7 (r : Ref sig .tc) (h : r ∉ wr2) : W7 m ρ c (Proc.devRef .tc r) = W6 m ρ c (Proc.devRef .tc r) :=
  StableHlo.after_of_writes_sub hostOps2 _ hwr2 h
theorem P9 (r : Ref sig .tc) (h : r ∉ wr3) : W9 m ρ c (Proc.devRef .tc r) = W8 m ρ c (Proc.devRef .tc r) :=
  StableHlo.after_of_writes_sub hostOps3 _ hwr3 h

/-- An array no host operation before the first kernel defines holds its launch contents there. -/
theorem W3_launch (r : Ref sig .tc) (h0 : r ∉ wr0) (h1 : r ∉ wr0_1) (h2 : r ∉ wr0_2) :
    W3 m ρ c (Proc.devRef .tc r) = m ((c : Thread nD τ).loc r) :=
  (P3 m ρ c r h2).trans ((P2 m ρ c r h1).trans (P1 m ρ c r h0))

/-! ## The edge words and the degree scale -/

/-- The source words, as the first stretch leaves them. -/
theorem W1_src : W1 m ρ c (Proc.devRef .tc main_v3) = Term.srcW (m ((c : Thread nD τ).loc main_arg1)) := by
  show StableHlo.after hostOps0 _ (Proc.devRef .tc main_v3) = _
  after_results
  rfl
/-- The destination words, as the first stretch leaves them. -/
theorem W1_dst : W1 m ρ c (Proc.devRef .tc main_v6) = Term.dstW (m ((c : Thread nD τ).loc main_arg1)) := by
  show StableHlo.after hostOps0 _ (Proc.devRef .tc main_v6) = _
  after_results
  rfl
set_option maxHeartbeats 400000 in
/-- The in-degrees. -/
theorem W1_deg : W1 m ρ c (Proc.devRef .tc main_v10) = Term.degV (m ((c : Thread nD τ).loc main_arg1)) := by
  show StableHlo.after hostOps0 _ (Proc.devRef .tc main_v10) = _
  after_results
  rfl

set_option maxHeartbeats 400000 in
/-- Which nodes have an incoming edge. -/
theorem W1_pos : W1 m ρ c (Proc.devRef .tc main_v12)
    = cmpf (F := Ideal) (φ := .f32) .ogt (Term.degV (m ((c : Thread nD τ).loc main_arg1))) Term.zerosN := by
  show StableHlo.after hostOps0 _ (Proc.devRef .tc main_v12) = _
  after_results
  rfl
set_option maxHeartbeats 400000 in
/-- The reciprocal root of the clamped in-degrees. -/
theorem W1_rs : W1 m ρ c (Proc.devRef .tc main_v15)
    = Host.rsqrt (F := Ideal) (φ := .f32) (maximumf (F := Ideal) (φ := .f32) (Term.degV (m ((c : Thread nD τ).loc main_arg1)))
        (broadcastInDim S50000 ![] bcast_S_S50000 (constant (F := Ideal) S_ .f32 0x3F800000#32))) := by
  show StableHlo.after hostOps0 _ (Proc.devRef .tc main_v15) = _
  after_results
  rfl
/-- The zero the select function is called with. -/
theorem W1_zero : W1 m ρ c (Proc.devRef .tc main_cst_3) = constant (F := Ideal) S_ .f32 0x00000000#32 := by
  show StableHlo.after hostOps0 _ (Proc.devRef .tc main_cst_3) = _
  after_results
set_option maxHeartbeats 400000 in
/-- The degree scale: the select function applied to the comparison and the reciprocal root of the first stretch. -/
theorem W2_dinv : W2 m ρ c (Proc.devRef .tc main_v16) = Term.dinvV (m ((c : Thread nD τ).loc main_arg1)) := by
  have h12 := W1_pos m ρ c
  have h15 := W1_rs m ρ c
  have h3 := W1_zero m ρ c
  show StableHlo.after hostOps0_1 (W1 m ρ c) (Proc.devRef .tc main_v16) = _
  generalize W1 m ρ c = V at h12 h15 h3 ⊢
  after_results
  rw [h12, h15, h3]
  have e16 : ∀ X : (⟨S50000, .f32⟩ : BufTy).Contents (Elt Ideal),
      (StableHlo.TRef.of (sig := sig) (T := ⟨S50000, .f32⟩) main_v16).toBuf (Val := Elt Ideal) X = X := fun _ => rfl
  have e12 : ∀ X : (⟨S50000, .i1⟩ : BufTy).Contents (Elt Ideal),
      (StableHlo.TRef.of (sig := sig) (T := ⟨S50000, .i1⟩) main_v12).ofBuf (Val := Elt Ideal) X = X := fun _ => rfl
  have e15 : ∀ X : (⟨S50000, .f32⟩ : BufTy).Contents (Elt Ideal),
      (StableHlo.TRef.of (sig := sig) (T := ⟨S50000, .f32⟩) main_v15).ofBuf (Val := Elt Ideal) X = X := fun _ => rfl
  have e1o : ∀ X : (⟨S50000, .f32⟩ : BufTy).Contents (Elt Ideal),
      (StableHlo.TRef.of (sig := sig) (T := ⟨S50000, .f32⟩) main_call0_v1).ofBuf (Val := Elt Ideal) X = X := fun _ => rfl
  have e1t : ∀ X : (⟨S50000, .f32⟩ : BufTy).Contents (Elt Ideal),
      (StableHlo.TRef.of (sig := sig) (T := ⟨S50000, .f32⟩) main_call0_v1).toBuf (Val := Elt Ideal) X = X := fun _ => rfl
  have e0o : ∀ X : (⟨S_, .f32⟩ : BufTy).Contents (Elt Ideal),
      (StableHlo.TRef.of (sig := sig) (T := ⟨S_, .f32⟩) main_call0_v0).ofBuf (Val := Elt Ideal) X = X := fun _ => rfl
  have e0t : ∀ X : (⟨S_, .f32⟩ : BufTy).Contents (Elt Ideal),
      (StableHlo.TRef.of (sig := sig) (T := ⟨S_, .f32⟩) main_call0_v0).toBuf (Val := Elt Ideal) X = X := fun _ => rfl
  have e3 : ∀ X : (⟨S_, .f32⟩ : BufTy).Contents (Elt Ideal),
      (StableHlo.TRef.of (sig := sig) (T := ⟨S_, .f32⟩) main_cst_3).ofBuf (Val := Elt Ideal) X = X := fun _ => rfl
  rw [e16, e12, e15, e1o, e1t, e0o, e0t, e3]
  rfl

/-- The degree scale as a column, as the first kernel reads it. -/
theorem W3_dcol : W3 m ρ c (Proc.devRef .tc main_v17) = Term.dcol (m ((c : Thread nD τ).loc main_arg1)) := by
  have h := W2_dinv m ρ c
  show StableHlo.after hostOps0_2 (W2 m ρ c) (Proc.devRef .tc main_v17) = _
  generalize W2 m ρ c = V at h ⊢
  after_results
  rw [h]
  rfl

/-! ## The same values at the later boundaries -/

theorem W4_of_W2 (r : Ref sig .tc) (h1 : r ∉ wr0_2) (h2 : ∀ w, Pipeline.arrRef spec0 w ≠ r) :
    W4 m ρ c (Proc.devRef .tc r) = W2 m ρ c (Proc.devRef .tc r) :=
  (W4_of_ne m ρ c r h2).trans (P3 m ρ c r h1)
theorem W6_of_W4 (r : Ref sig .tc) (h1 : r ∉ wr1) (h2 : ∀ w, Pipeline.arrRef spec1 w ≠ r) :
    W6 m ρ c (Proc.devRef .tc r) = W4 m ρ c (Proc.devRef .tc r) :=
  (W6_of_ne m ρ c r h2).trans (P5 m ρ c r h1)
theorem W8_of_W6 (r : Ref sig .tc) (h1 : r ∉ wr2) (h2 : ∀ w, Pipeline.arrRef spec2 w ≠ r) :
    W8 m ρ c (Proc.devRef .tc r) = W6 m ρ c (Proc.devRef .tc r) :=
  (W8_of_ne m ρ c r h2).trans (P7 m ρ c r h1)

theorem W4_src : W4 m ρ c (Proc.devRef .tc main_v3) = Term.srcW (m ((c : Thread nD τ).loc main_arg1)) :=
  (W4_of_W2 m ρ c main_v3 (by decide) (by decide)).trans ((P2 m ρ c main_v3 (by decide)).trans (W1_src m ρ c))
theorem W4_dst : W4 m ρ c (Proc.devRef .tc main_v6) = Term.dstW (m ((c : Thread nD τ).loc main_arg1)) :=
  (W4_of_W2 m ρ c main_v6 (by decide) (by decide)).trans ((P2 m ρ c main_v6 (by decide)).trans (W1_dst m ρ c))
theorem W4_dinv : W4 m ρ c (Proc.devRef .tc main_v16) = Term.dinvV (m ((c : Thread nD τ).loc main_arg1)) :=
  (W4_of_W2 m ρ c main_v16 (by decide) (by decide)).trans (W2_dinv m ρ c)
/-- An array no host operation before the second kernel defines, and the first kernel does not touch. -/
theorem W4_launch (r : Ref sig .tc) (h0 : r ∉ wr0) (h1 : r ∉ wr0_1) (h2 : r ∉ wr0_2) (h3 : ∀ w, Pipeline.arrRef spec0 w ≠ r) :
    W4 m ρ c (Proc.devRef .tc r) = m ((c : Thread nD τ).loc r) :=
  (W4_of_ne m ρ c r h3).trans (W3_launch m ρ c r h0 h1 h2)

theorem W6_dinv : W6 m ρ c (Proc.devRef .tc main_v16) = Term.dinvV (m ((c : Thread nD τ).loc main_arg1)) :=
  (W6_of_W4 m ρ c main_v16 (by decide) (by decide)).trans (W4_dinv m ρ c)
theorem W8_src : W8 m ρ c (Proc.devRef .tc main_v3) = Term.srcW (m ((c : Thread nD τ).loc main_arg1)) :=
  (W8_of_W6 m ρ c main_v3 (by decide) (by decide)).trans ((W6_of_W4 m ρ c main_v3 (by decide) (by decide)).trans (W4_src m ρ c))
theorem W8_dst : W8 m ρ c (Proc.devRef .tc main_v6) = Term.dstW (m ((c : Thread nD τ).loc main_arg1)) :=
  (W8_of_W6 m ρ c main_v6 (by decide) (by decide)).trans ((W6_of_W4 m ρ c main_v6 (by decide) (by decide)).trans (W4_dst m ρ c))
theorem W8_dinv : W8 m ρ c (Proc.devRef .tc main_v16) = Term.dinvV (m ((c : Thread nD τ).loc main_arg1)) :=
  (W8_of_W6 m ρ c main_v16 (by decide) (by decide)).trans (W6_dinv m ρ c)
/-- The second layer's bias is as launched when the last stretch reads it. -/
theorem W8_b2 : W8 m ρ c (Proc.devRef .tc main_arg5) = m ((c : Thread nD τ).loc main_arg5) :=
  (W8_of_W6 m ρ c main_arg5 (by decide) (by decide)).trans ((W6_of_W4 m ρ c main_arg5 (by decide) (by decide)).trans
    (W4_launch m ρ c main_arg5 (by decide) (by decide) (by decide) (by decide)))
/-- The second layer's weights are as launched when the third kernel reads them. -/
theorem W7_W2 : W7 m ρ c (Proc.devRef .tc main_arg4) = m ((c : Thread nD τ).loc main_arg4) :=
  (P7 m ρ c main_arg4 (by decide)).trans ((W6_of_W4 m ρ c main_arg4 (by decide) (by decide)).trans
    (W4_launch m ρ c main_arg4 (by decide) (by decide) (by decide) (by decide)))
/-- The second kernel's output is untouched by the reshape before the third kernel. -/
theorem W7_h1 : W7 m ρ c (Proc.devRef .tc main_v31) = W6 m ρ c (Proc.devRef .tc main_v31) := P7 m ρ c main_v31 (by decide)

/-! ## What the kernels read and the sums between them -/

set_option maxHeartbeats 400000 in
/-- The first layer's sum over incoming edges of the first kernel's output. -/
theorem W5_agg : W5 m ρ c (Proc.devRef .tc main_v28)
    = Term.aggV (m ((c : Thread nD τ).loc main_arg1)) (W4 m ρ c (Proc.devRef .tc main_v18)) := by
  have hs := W4_src m ρ c
  have hd := W4_dst m ρ c
  show StableHlo.after hostOps1 (W4 m ρ c) (Proc.devRef .tc main_v28) = Term.aggV _ (W4 m ρ c (Proc.devRef .tc main_v18))
  generalize W4 m ρ c = V at hs hd ⊢
  after_results
  rw [hs, hd]
  rfl
set_option maxHeartbeats 400000 in
theorem W5_dcol : W5 m ρ c (Proc.devRef .tc main_v29) = Term.dcol (m ((c : Thread nD τ).loc main_arg1)) := by
  have h := W4_dinv m ρ c
  show StableHlo.after hostOps1 (W4 m ρ c) (Proc.devRef .tc main_v29) = _
  generalize W4 m ρ c = V at h ⊢
  after_results
  rw [h]
  rfl
set_option maxHeartbeats 400000 in
theorem W5_bias : W5 m ρ c (Proc.devRef .tc main_v30)
    = shapeCast S1x128 (m ((c : Thread nD τ).loc main_arg3)) shapeCasts_S128_S1x128 := by
  have h := W4_launch m ρ c main_arg3 (by decide) (by decide) (by decide) (by decide)
  show StableHlo.after hostOps1 (W4 m ρ c) (Proc.devRef .tc main_v30) = _
  generalize W4 m ρ c = V at h ⊢
  after_results
  rw [h]
  rfl
set_option maxHeartbeats 400000 in
theorem W7_dcol : W7 m ρ c (Proc.devRef .tc main_v32) = Term.dcol (m ((c : Thread nD τ).loc main_arg1)) := by
  have h := W6_dinv m ρ c
  show StableHlo.after hostOps2 (W6 m ρ c) (Proc.devRef .tc main_v32) = _
  generalize W6 m ρ c = V at h ⊢
  after_results
  rw [h]
  rfl
set_option maxHeartbeats 400000 in
/-- The second layer's sum over incoming edges of the third kernel's output. -/
theorem W9_agg : W9 m ρ c (Proc.devRef .tc main_v43)
    = Term.aggV (m ((c : Thread nD τ).loc main_arg1)) (W8 m ρ c (Proc.devRef .tc main_v33)) := by
  have hs := W8_src m ρ c
  have hd := W8_dst m ρ c
  show StableHlo.after hostOps3 (W8 m ρ c) (Proc.devRef .tc main_v43) = Term.aggV _ (W8 m ρ c (Proc.devRef .tc main_v33))
  generalize W8 m ρ c = V at hs hd ⊢
  after_results
  rw [hs, hd]
  rfl
set_option maxHeartbeats 400000 in
theorem W9_dcol : W9 m ρ c (Proc.devRef .tc main_v44) = Term.dcol (m ((c : Thread nD τ).loc main_arg1)) := by
  have h := W8_dinv m ρ c
  show StableHlo.after hostOps3 (W8 m ρ c) (Proc.devRef .tc main_v44) = _
  generalize W8 m ρ c = V at h ⊢
  after_results
  rw [h]
  rfl
set_option maxHeartbeats 400000 in
theorem W9_bias : W9 m ρ c (Proc.devRef .tc main_v45)
    = shapeCast S1x128 (m ((c : Thread nD τ).loc main_arg5)) shapeCasts_S128_S1x128 := by
  have h := W8_b2 m ρ c
  show StableHlo.after hostOps3 (W8 m ρ c) (Proc.devRef .tc main_v45) = _
  generalize W8 m ρ c = V at h ⊢
  after_results
  rw [h]
  rfl

end Cert.KernelIdeal.Val

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.LibKeepdimsColumn.lean ====
/-
  A column kept beside a matrix. A vector of a entries reshaped to an a×1 column reads its entry i at (i, 0); an a×1
  column broadcast along its unit axis to an a×b matrix reads, at (p, c), the column's entry p. Together they are how a
  per-row quantity (a row's maximum, a row's sum) is put back beside every entry of its row.
-/
import Idealize.ShloMosaic.Lib.ValueLayout

namespace KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsColumn
-- ==== Proof.KerRegionMM.lean ====
/-
  The matmul-and-scale kernel read as a whole-array function: after its ten grid points the output array holds
  (h·W) with row i scaled by d i, whatever the arrays the region is entered with. Each grid point owns 5000 consecutive
  rows; its block of the output is that function restricted to those rows, and the ten blocks cover the array.
-/
import proofs.«143881_j43413529428079_2_alg».proof.Proof.Gen.KernelIdeal.Frame
import proofs.«143881_j43413529428079_2_alg».proof.Proof.KerTerm
import proofs.«143881_j43413529428079_2_alg».proof.Proof.LibPlainMatmul
import proofs.«143881_j43413529428079_2_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## One block's product at an entry -/

/-- The zero offsets of a whole-block access. -/
theorem zero_offsets : (![0, 0] : Fin 2 → Nat) = fun _ => 0 := funext fun a => by fin_cases a <;> rfl

set_option maxHeartbeats 400000 in
/-- Entry (p, q) of what the first kernel's body stores: the block's product row scaled by the block's column entry. -/
theorem pay0_apply (x0 : FVec Ideal S5000x128 .f32) (x1 : FVec Ideal S128x128 .f32) (x2 : FVec Ideal S5000x1 .f32)
    (p : Fin 5000) (q : Fin 128) :
    k0_pay1 (F := Ideal) x0 x1 x2 (ix2 p q) = (∑ k : Fin 128, x0 (ix2 p k) * x1 (ix2 k q)) * x2 (ix2 p (0 : Fin 1)) := by
  unfold k0_pay1
  rw [mulf_apply, shapeCast_self, KeepdimsColumn.broadcastTo_a1_ab_apply]
  refine congrArg (· * x2 (ix2 p (0 : Fin 1))) ?_
  exact PlainMatmul.apply_zero (M := 5000) (K := 128) (N := 128) x0 x1 p q

/-- A block's entry of the stored value is the whole-array function at the row the block's row sits at, once the block's
    three operands are known to be the arrays read at that row. -/
theorem pay0_eq_mmScale (h : S50000x128.Idx → EReal) (W : S128x128.Idx → EReal) (d : S50000x1.Idx → EReal)
    (x0 : FVec Ideal S5000x128 .f32) (x1 : FVec Ideal S128x128 .f32) (x2 : FVec Ideal S5000x1 .f32)
    (r : Fin 50000) (p : Fin 5000) (q : Fin 128)
    (h0 : ∀ k : Fin 128, x0 (ix2 p k) = h (ix2 r k)) (h1 : ∀ k : Fin 128, x1 (ix2 k q) = W (ix2 k q))
    (h2 : x2 (ix2 p (0 : Fin 1)) = d (ix2 r (0 : Fin 1))) :
    k0_pay1 (F := Ideal) x0 x1 x2 (ix2 p q) = Term.mmScale h W d (ix2 r q) := by
  rw [pay0_apply, h2]
  show _ = (∑ k : Fin 128, h (ix2 r k) * W (ix2 k q)) * d (ix2 r (0 : Fin 1))
  exact congrArg (· * d (ix2 r (0 : Fin 1))) (Finset.sum_congr rfl fun k _ => by rw [h0 k, h1 k])

set_option maxHeartbeats 400000 in
/-- The second kernel's body stores the same value: its extra cast of the loaded block to its own shape changes nothing. -/
theorem pay2_eq_pay0 (x0 : FVec Ideal S5000x128 .f32) (x1 : FVec Ideal S128x128 .f32) (x2 : FVec Ideal S5000x1 .f32) :
    k2_pay1 (F := Ideal) x0 x1 x2 = k0_pay1 (F := Ideal) x0 x1 x2 := by
  unfold k2_pay1 k0_pay1
  rw [shapeCast_self x0]

variable (V : (c : Dev nD) → (b : Ref sig .tc) → Buf (Elt Ideal) ((c : Thread nD τ).loc b))

/-! ## The first call -/

/-- The printed index maps, decided over the ten points: the row blocks move with the point, the weights stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The row of the array under row p of point t's block. -/
def mmRow (t : Fin 10) (p : Fin 5000) : Fin 50000 := ⟨t.val * 5000 + p.val, by have := t.isLt; have := p.isLt; omega⟩

set_option maxHeartbeats 400000 in
/-- What point t writes back is block t of the whole-array function of the three arrays as the call finds them:
    row p of the block is row 5000·t + p of the array, and the weights' one block is the weights. -/
theorem flushed0_eq (c : Dev nD) (t : Fin cfg0.N) :
    (dat0 (F := Ideal) V c).flushed 3 t
      = ((cfg0.win 3).blk t).view.read (Elt Ideal) (Term.mmScale (V c main_arg0) (V c main_arg2) (V c main_v17)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x128) zero_offsets,
    View.ld_unit_zero (S := S5000x1) zero_offsets]
  obtain ⟨e00, e01, e10, e11, e20, e21, e30, e31⟩ := idx_facts0 t
  have hN : cfg0.N = 10 := N_0
  funext j
  obtain ⟨p, q, rfl⟩ : ∃ (p : Fin 5000) (q : Fin 128), j = ix2 p q := ⟨j 0, j 1, eq_ix2 j⟩
  have hp := p.isLt
  have hq := q.isLt
  have ht : t.val < 10 := hN ▸ t.isLt
  have hout : ((cfg0.win 3).blk t).view.emb (ix2 p q) = ix2 (mmRow ⟨t.val, ht⟩ p) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  show k0_pay1 (iblk0 V c 0 t) (iblk0 V c 1 t) (iblk0 V c 2 t) (ix2 p q)
    = Term.mmScale (V c main_arg0) (V c main_arg2) (V c main_v17) (((cfg0.win 3).blk t).view.emb (ix2 p q))
  rw [hout]
  refine pay0_eq_mmScale _ _ _ _ _ _ (mmRow ⟨t.val, ht⟩ p) p q (fun k => ?_) (fun k => ?_) ?_
  · show V c main_arg0 (((cfg0.win 0).blk t).view.emb (ix2 p k)) = V c main_arg0 (ix2 (mmRow ⟨t.val, ht⟩ p) k)
    refine congrArg _ ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c main_arg2 (((cfg0.win 1).blk t).view.emb (ix2 k q)) = V c main_arg2 (ix2 k q)
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  · show V c main_v17 (((cfg0.win 2).blk t).view.emb (ix2 p (0 : Fin 1))) = V c main_v17 (ix2 (mmRow ⟨t.val, ht⟩ p) (0 : Fin 1))
    refine congrArg _ ?_
    funext a; apply Fin.ext
    match a with
    | ⟨0, _⟩ => show win0_2.index t (0 : Fin 2) * 5000 + 1 * p.val = t.val * 5000 + p.val; omega
    | ⟨1, _⟩ => show win0_2.index t (1 : Fin 2) * 1 + 1 * 0 = 0; omega

/-- An index of the array is in point t's block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v18).slice (win0_3.rect t)).set ↔ _
  rw [View.set_slice_whole, Rect.mem_set_unit]
  exact Iff.rfl

/-- Row r of the array lies in the block of point r / 5000, which writes its block back. -/
theorem cover0 (i : S50000x128.Idx) :
    ∃ t : Fin cfg0.N, (cfg0.win 3).flush t = true ∧ i ∈ ((cfg0.win 3).blk t).view.set := by
  have hN : cfg0.N = 10 := N_0
  have hi0 : (i 0).val < 50000 := (i 0).isLt
  have hi1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, -, -, e30, e31⟩ := idx_facts0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- The first layer's projection: the output array of the first pallas_call after its run. -/
theorem region0 (c : Dev nD) :
    (dat0 (F := Ideal) V c).arrAt 3 cfg0.N = Term.mmScale (V c main_arg0) (V c main_arg2) (V c main_v17) :=
  (dat0 (F := Ideal) V c).arrAt_eq_of_cover 3 (Term.mmScale (V c main_arg0) (V c main_arg2) (V c main_v17))
    (fun t _ => flushed0_eq V c t) cover0

/-! ## The second call: the same kernel on the second layer's arrays -/

/-- The second call's index maps are the first's. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

set_option maxHeartbeats 400000 in
/-- What point t writes back is block t of the whole-array function of the second layer's three arrays. -/
theorem flushed2_eq (c : Dev nD) (t : Fin cfg2.N) :
    (dat2 (F := Ideal) V c).flushed 3 t
      = ((cfg2.win 3).blk t).view.read (Elt Ideal) (Term.mmScale (V c main_v31) (V c main_arg4) (V c main_v32)) := by
  show (cfg2.win 3).cut (grid2.coords t) ((dat2 V c).after 3 t) = _
  rw [after2_3]
  unfold out2_3
  rw [View.canon_unit_zero zero_offsets]
  simp only [View.ld_unit_zero (S := S5000x128) zero_offsets, View.ld_unit_zero (S := S128x128) zero_offsets,
    View.ld_unit_zero (S := S5000x1) zero_offsets]
  obtain ⟨e00, e01, e10, e11, e20, e21, e30, e31⟩ := idx_facts2 t
  have hN : cfg2.N = 10 := N_2
  funext j
  obtain ⟨p, q, rfl⟩ : ∃ (p : Fin 5000) (q : Fin 128), j = ix2 p q := ⟨j 0, j 1, eq_ix2 j⟩
  have hp := p.isLt
  have hq := q.isLt
  have ht : t.val < 10 := hN ▸ t.isLt
  have hout : ((cfg2.win 3).blk t).view.emb (ix2 p q) = ix2 (mmRow ⟨t.val, ht⟩ p) q := by
    funext a; apply Fin.ext
    match a with
    | ⟨0, _⟩ => show win2_3.index t (0 : Fin 2) * 5000 + 1 * p.val = t.val * 5000 + p.val; omega
    | ⟨1, _⟩ => show win2_3.index t (1 : Fin 2) * 128 + 1 * q.val = q.val; omega
  show k2_pay1 (iblk2 V c 0 t) (iblk2 V c 1 t) (iblk2 V c 2 t) (ix2 p q)
    = Term.mmScale (V c main_v31) (V c main_arg4) (V c main_v32) (((cfg2.win 3).blk t).view.emb (ix2 p q))
  rw [hout, pay2_eq_pay0]
  refine pay0_eq_mmScale _ _ _ _ _ _ (mmRow ⟨t.val, ht⟩ p) p q (fun k => ?_) (fun k => ?_) ?_
  · show V c main_v31 (((cfg2.win 0).blk t).view.emb (ix2 p k)) = V c main_v31 (ix2 (mmRow ⟨t.val, ht⟩ p) k)
    refine congrArg _ ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  · show V c main_arg4 (((cfg2.win 1).blk t).view.emb (ix2 k q)) = V c main_arg4 (ix2 k q)
    refine congrArg _ ?_
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  · show V c main_v32 (((cfg2.win 2).blk t).view.emb (ix2 p (0 : Fin 1))) = V c main_v32 (ix2 (mmRow ⟨t.val, ht⟩ p) (0 : Fin 1))
    refine congrArg _ ?_
    funext a; apply Fin.ext
    match a with
    | ⟨0, _⟩ => show win2_2.index t (0 : Fin 2) * 5000 + 1 * p.val = t.val * 5000 + p.val; omega
    | ⟨1, _⟩ => show win2_2.index t (1 : Fin 2) * 1 + 1 * 0 = 0; omega

/-- An index of the array is in point t's block iff each coordinate is in the block's range on its axis. -/
theorem mem_blk2 (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v33).slice (win2_3.rect t)).set ↔ _
  rw [View.set_slice_whole, Rect.mem_set_unit]
  exact Iff.rfl

/-- Row r of the array lies in the block of point r / 5000, which writes its block back. -/
theorem cover2 (i : S50000x128.Idx) :
    ∃ t : Fin cfg2.N, (cfg2.win 3).flush t = true ∧ i ∈ ((cfg2.win 3).blk t).view.set := by
  have hN : cfg2.N = 10 := N_2
  have hi0 : (i 0).val < 50000 := (i 0).isLt
  have hi1 : (i 1).val < 128 := (i 1).isLt
  obtain ⟨t, ht⟩ : ∃ t : Fin cfg2.N, t.val = (i 0).val / 5000 := ⟨⟨(i 0).val / 5000, by rw [hN]; omega⟩, rfl⟩
  obtain ⟨-, -, -, -, -, -, e30, e31⟩ := idx_facts2 t
  refine ⟨t, flush2_3 t, ?_⟩
  rw [mem_blk2]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 128 ≤ (i 1).val ∧ (i 1).val < win2_3.index t (1 : Fin 2) * 128 + 128
    omega

/-- The second layer's projection: the output array of the third pallas_call after its run. -/
theorem region2 (c : Dev nD) :
    (dat2 (F := Ideal) V c).arrAt 3 cfg2.N = Term.mmScale (V c main_v31) (V c main_arg4) (V c main_v32) :=
  (dat2 (F := Ideal) V c).arrAt_eq_of_cover 3 (Term.mmScale (V c main_v31) (V c main_arg4) (V c main_v32))
    (fun t _ => flushed2_eq V c t) cover2

end Cert.KernelIdeal.Val

end
-- ==== Proof.KerRegionElu.lean ====
/-
  The scale-bias-elu kernel read as a whole-array function: after its ten grid points the output array holds
  elu(a · d + b), d per row and b per column, whatever the arrays the region is entered with. Each grid point owns 5000
  consecutive rows; its block of the output is that function restricted to those rows, and the ten blocks cover the array.
-/
import proofs.«143881_j43413529428079_2_alg».proof.Proof.Gen.KernelIdeal.Frame
import proofs.«143881_j43413529428079_2_alg».proof.Proof.KerTerm
import proofs.«143881_j43413529428079_2_alg».proof.Proof.LibKeepdimsColumn
import Idealize.ShloMosaic.Lib.Pipeline.Value
import Idealize.ShloMosaic.Lib.ValueIdx
import Idealize.ShloMosaic.Lib.ValueLayout

noncomputable section

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-- The zero offsets of a whole-block access, as a constant function. -/
theorem hz : (![0, 0] : Fin 2 → Nat) = fun _ => 0 := funext fun a => by fin_cases a <;> rfl

/-! ## One element of the kernel's payload -/

set_option maxHeartbeats 400000 in
/-- Entry (p, q) of the first layer's payload: elu of the block's entry times its row's scale plus its column's bias. -/
theorem pay1_apply (x0 : Vec Ideal S5000x128 .f32) (x1 : Vec Ideal S5000x1 .f32) (x2 : Vec Ideal S1x128 .f32)
    (p : Fin 5000) (q : Fin 128) :
    k1_pay1 x0 x1 x2 (ix2 p q) = Term.eluK (x0 (ix2 p q) * x1 (ix2 p (0 : Fin 1)) + x2 (ix2 (0 : Fin 1) q)) := by
  have hA : broadcastTo S5000x128 x1 broadcasts_S5000x1_S5000x128 (ix2 p q) = x1 (ix2 p (0 : Fin 1)) :=
    KeepdimsColumn.broadcastTo_a1_ab_apply x1 _ p q
  have hB : broadcastTo S5000x128 x2 broadcasts_S1x128_S5000x128 (ix2 p q) = x2 (ix2 (0 : Fin 1) q) :=
    broadcastTo_1b_ab_apply x2 _ p q
  have hE : ∀ (v : FVec Ideal S5000x128 .f32) (i : S5000x128.Idx), exp v i = Ideal.exp (v i) := fun _ _ => rfl
  unfold k1_pay1 Term.eluK
  simp only [shapeCast_self]
  simp only [select_apply, cmpf_apply, subf_apply, hE, minimumf_apply, addf_apply, mulf_apply, broadcast_apply, hA, hB]
  rfl

/-- The payload's entry (p, q) is the whole-array function's entry at `i` once each operand's entry is the matching entry
    of its array: the block's entry at `i`, the scale of row `i 0`, the bias of column `i 1`. -/
theorem pay1_at (A : S50000x128.Idx → Elt Ideal .f32) (D : S50000x1.Idx → Elt Ideal .f32) (B : S1x128.Idx → Elt Ideal .f32)
    (x0 : Vec Ideal S5000x128 .f32) (x1 : Vec Ideal S5000x1 .f32) (x2 : Vec Ideal S1x128 .f32)
    (p : Fin 5000) (q : Fin 128) (i : S50000x128.Idx)
    (h0 : x0 (ix2 p q) = A i) (h1 : x1 (ix2 p (0 : Fin 1)) = D (ix2 (i 0) (0 : Fin 1)))
    (h2 : x2 (ix2 (0 : Fin 1) q) = B (ix2 (0 : Fin 1) (i 1))) :
    k1_pay1 x0 x1 x2 (ix2 p q) = Term.postElu A D B i := by
  rw [pay1_apply, h0, h1, h2]
  exact congrArg (fun z => Term.eluK (z * D (ix2 (i 0) (0 : Fin 1)) + B (ix2 (0 : Fin 1) (i 1)))) (congrArg A (eq_ix2 i))

/-- The second layer's payload is the first layer's: the same operations on the same shapes. -/
theorem pay3_eq (x0 : Vec Ideal S5000x128 .f32) (x1 : Vec Ideal S5000x1 .f32) (x2 : Vec Ideal S1x128 .f32) :
    k3_pay1 x0 x1 x2 = k1_pay1 x0 x1 x2 := rfl

/-- So its entry (p, q) is the whole-array function's entry at `i` under the same three matchings. -/
theorem pay3_at (A : S50000x128.Idx → Elt Ideal .f32) (D : S50000x1.Idx → Elt Ideal .f32) (B : S1x128.Idx → Elt Ideal .f32)
    (x0 : Vec Ideal S5000x128 .f32) (x1 : Vec Ideal S5000x1 .f32) (x2 : Vec Ideal S1x128 .f32)
    (p : Fin 5000) (q : Fin 128) (i : S50000x128.Idx)
    (h0 : x0 (ix2 p q) = A i) (h1 : x1 (ix2 p (0 : Fin 1)) = D (ix2 (i 0) (0 : Fin 1)))
    (h2 : x2 (ix2 (0 : Fin 1) q) = B (ix2 (0 : Fin 1) (i 1))) :
    k3_pay1 x0 x1 x2 (ix2 p q) = Term.postElu A D B i :=
  (congrFun (pay3_eq x0 x1 x2) (ix2 p q)).trans (pay1_at A D B x0 x1 x2 p q i h0 h1 h2)

variable (V : (c : Dev nD) → (b : Ref sig .tc) → Buf (Elt Ideal) ((c : Thread nD τ).loc b))

/-! ## The first layer's epilogue (the second pallas_call) -/

/-- The block index maps over the ten points: the entries, the row scales and the output move one block of rows per
    point; the bias row stays. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- An entry of the entries' block at point `t` is the array's entry 5000·t rows further down. -/
theorem blk1_0_apply (c : Dev nD) (t : Fin cfg1.N) (p : Fin 5000) (q : Fin 128) (k : S50000x128.Idx)
    (hk0 : (k 0).val = t.val * 5000 + p.val) (hk1 : (k 1).val = q.val) :
    (iblk1 V c 0 t : Vec Ideal S5000x128 .f32) (ix2 p q) = V c main_v28 k := by
  obtain ⟨e00, e01, -⟩ := idx1 t
  unfold iblk1
  rw [View.read_apply]
  show V c main_v28 _ = V c main_v28 _
  congr 1
  funext a
  apply Fin.ext
  match a with
  | ⟨0, _⟩ => show win1_0.index t (0 : Fin 2) * 5000 + 1 * p.val = (k 0).val; omega
  | ⟨1, _⟩ => show win1_0.index t (1 : Fin 2) * 128 + 1 * q.val = (k 1).val; omega

/-- An entry of the row scales' block at point `t` is the column's entry 5000·t rows further down. -/
theorem blk1_1_apply (c : Dev nD) (t : Fin cfg1.N) (p : Fin 5000) (k : S50000x1.Idx)
    (hk0 : (k 0).val = t.val * 5000 + p.val) :
    (iblk1 V c 1 t : Vec Ideal S5000x1 .f32) (ix2 p (0 : Fin 1)) = V c main_v29 k := by
  obtain ⟨-, -, e10, e11, -⟩ := idx1 t
  have hk1 : (k 1).val < 1 := (k 1).isLt
  unfold iblk1
  rw [View.read_apply]
  show V c main_v29 _ = V c main_v29 _
  congr 1
  funext a
  apply Fin.ext
  match a with
  | ⟨0, _⟩ => show win1_1.index t (0 : Fin 2) * 5000 + 1 * p.val = (k 0).val; omega
  | ⟨1, _⟩ => show win1_1.index t (1 : Fin 2) * 1 + 1 * (0 : Fin 1).val = (k 1).val; show win1_1.index t (1 : Fin 2) * 1 + 1 * 0 = (k 1).val; omega

/-- The bias row's block is the bias row at every point. -/
theorem blk1_2_apply (c : Dev nD) (t : Fin cfg1.N) (q : Fin 128) (k : S1x128.Idx) (hk1 : (k 1).val = q.val) :
    (iblk1 V c 2 t : Vec Ideal S1x128 .f32) (ix2 (0 : Fin 1) q) = V c main_v30 k := by
  obtain ⟨-, -, -, -, e20, e21, -⟩ := idx1 t
  have hk0 : (k 0).val < 1 := (k 0).isLt
  unfold iblk1
  rw [View.read_apply]
  show V c main_v30 _ = V c main_v30 _
  congr 1
  funext a
  apply Fin.ext
  match a with
  | ⟨0, _⟩ => show win1_2.index t (0 : Fin 2) * 1 + 1 * (0 : Fin 1).val = (k 0).val; show win1_2.index t (0 : Fin 2) * 1 + 1 * 0 = (k 0).val; omega
  | ⟨1, _⟩ => show win1_2.index t (1 : Fin 2) * 128 + 1 * q.val = (k 1).val; omega

set_option maxHeartbeats 400000 in
/-- What point `t` writes back is block `t` of elu(a · d + b) of the arrays the region is entered with. -/
theorem flushed1_eq (c : Dev nD) (t : Fin cfg1.N) :
    (dat1 (F := Ideal) V c).flushed 3 t
      = ((cfg1.win 3).blk t).view.read (Elt Ideal) (Term.postElu (V c main_v28) (V c main_v29) (V c main_v30)) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz, View.ld_unit_zero (S := S1x128) hz]
  obtain ⟨e00, e01, e10, e11, e20, e21, e30, e31⟩ := idx1 t
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q)
    = Term.postElu (V c main_v28) (V c main_v29) (V c main_v30) (((cfg1.win 3).blk t).view.emb (ix2 p q))
  refine pay1_at _ _ _ _ _ _ p q _ (blk1_0_apply V c t p q _ ?_ ?_) (blk1_1_apply V c t p _ ?_) (blk1_2_apply V c t q _ ?_)
  · show win1_3.index t (0 : Fin 2) * 5000 + 1 * p.val = t.val * 5000 + p.val; omega
  · show win1_3.index t (1 : Fin 2) * 128 + 1 * q.val = q.val; omega
  · show win1_3.index t (0 : Fin 2) * 5000 + 1 * p.val = t.val * 5000 + p.val; omega
  · show win1_3.index t (1 : Fin 2) * 128 + 1 * q.val = q.val; omega

/-- An index of the array is in point `t`'s block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v31).slice (win1_3.rect t)).set ↔ _
  rw [View.set_slice_whole, Rect.mem_set_unit]
  exact Iff.rfl

/-- Row r of the array is in the block of point r / 5000. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  refine ⟨t, flush1_3 t, ?_⟩
  rw [mem_blk1]
  obtain ⟨-, -, -, -, -, -, e30, e31⟩ := idx1 t
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The first layer's epilogue: the output array of the second pallas_call after its run. -/
theorem region1 (c : Dev nD) :
    (dat1 (F := Ideal) V c).arrAt 3 cfg1.N = Term.postElu (V c main_v28) (V c main_v29) (V c main_v30) :=
  (dat1 (F := Ideal) V c).arrAt_eq_of_cover 3 (Term.postElu (V c main_v28) (V c main_v29) (V c main_v30))
    (fun t _ => flushed1_eq V c t) cover1

/-! ## The second layer's epilogue (the fourth pallas_call) -/

/-- The block index maps over the ten points: the entries, the row scales and the output move one block of rows per
    point; the bias row stays. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- An entry of the entries' block at point `t` is the array's entry 5000·t rows further down. -/
theorem blk3_0_apply (c : Dev nD) (t : Fin cfg3.N) (p : Fin 5000) (q : Fin 128) (k : S50000x128.Idx)
    (hk0 : (k 0).val = t.val * 5000 + p.val) (hk1 : (k 1).val = q.val) :
    (iblk3 V c 0 t : Vec Ideal S5000x128 .f32) (ix2 p q) = V c main_v43 k := by
  obtain ⟨e00, e01, -⟩ := idx3 t
  unfold iblk3
  rw [View.read_apply]
  show V c main_v43 _ = V c main_v43 _
  congr 1
  funext a
  apply Fin.ext
  match a with
  | ⟨0, _⟩ => show win3_0.index t (0 : Fin 2) * 5000 + 1 * p.val = (k 0).val; omega
  | ⟨1, _⟩ => show win3_0.index t (1 : Fin 2) * 128 + 1 * q.val = (k 1).val; omega

/-- An entry of the row scales' block at point `t` is the column's entry 5000·t rows further down. -/
theorem blk3_1_apply (c : Dev nD) (t : Fin cfg3.N) (p : Fin 5000) (k : S50000x1.Idx)
    (hk0 : (k 0).val = t.val * 5000 + p.val) :
    (iblk3 V c 1 t : Vec Ideal S5000x1 .f32) (ix2 p (0 : Fin 1)) = V c main_v44 k := by
  obtain ⟨-, -, e10, e11, -⟩ := idx3 t
  have hk1 : (k 1).val < 1 := (k 1).isLt
  unfold iblk3
  rw [View.read_apply]
  show V c main_v44 _ = V c main_v44 _
  congr 1
  funext a
  apply Fin.ext
  match a with
  | ⟨0, _⟩ => show win3_1.index t (0 : Fin 2) * 5000 + 1 * p.val = (k 0).val; omega
  | ⟨1, _⟩ => show win3_1.index t (1 : Fin 2) * 1 + 1 * (0 : Fin 1).val = (k 1).val; show win3_1.index t (1 : Fin 2) * 1 + 1 * 0 = (k 1).val; omega

/-- The bias row's block is the bias row at every point. -/
theorem blk3_2_apply (c : Dev nD) (t : Fin cfg3.N) (q : Fin 128) (k : S1x128.Idx) (hk1 : (k 1).val = q.val) :
    (iblk3 V c 2 t : Vec Ideal S1x128 .f32) (ix2 (0 : Fin 1) q) = V c main_v45 k := by
  obtain ⟨-, -, -, -, e20, e21, -⟩ := idx3 t
  have hk0 : (k 0).val < 1 := (k 0).isLt
  unfold iblk3
  rw [View.read_apply]
  show V c main_v45 _ = V c main_v45 _
  congr 1
  funext a
  apply Fin.ext
  match a with
  | ⟨0, _⟩ => show win3_2.index t (0 : Fin 2) * 1 + 1 * (0 : Fin 1).val = (k 0).val; show win3_2.index t (0 : Fin 2) * 1 + 1 * 0 = (k 0).val; omega
  | ⟨1, _⟩ => show win3_2.index t (1 : Fin 2) * 128 + 1 * q.val = (k 1).val; omega

set_option maxHeartbeats 400000 in
/-- What point `t` writes back is block `t` of elu(a · d + b) of the arrays the region is entered with. -/
theorem flushed3_eq (c : Dev nD) (t : Fin cfg3.N) :
    (dat3 (F := Ideal) V c).flushed 3 t
      = ((cfg3.win 3).blk t).view.read (Elt Ideal) (Term.postElu (V c main_v43) (V c main_v44) (V c main_v45)) := by
  show (cfg3.win 3).cut (grid3.coords t) ((dat3 V c).after 3 t) = _
  rw [after3_3]
  unfold out3_3
  rw [View.canon_unit_zero hz]
  simp only [View.ld_unit_zero (S := S5000x128) hz, View.ld_unit_zero (S := S5000x1) hz, View.ld_unit_zero (S := S1x128) hz]
  obtain ⟨e00, e01, e10, e11, e20, e21, e30, e31⟩ := idx3 t
  funext j
  obtain ⟨p, q, rfl⟩ : ∃ (p : Fin 5000) (q : Fin 128), j = ix2 p q := ⟨j 0, j 1, eq_ix2 j⟩
  show k3_pay1 (iblk3 V c 0 t) (iblk3 V c 1 t) (iblk3 V c 2 t) (ix2 p q)
    = Term.postElu (V c main_v43) (V c main_v44) (V c main_v45) (((cfg3.win 3).blk t).view.emb (ix2 p q))
  refine pay3_at _ _ _ _ _ _ p q _ (blk3_0_apply V c t p q _ ?_ ?_) (blk3_1_apply V c t p _ ?_) (blk3_2_apply V c t q _ ?_)
  · show win3_3.index t (0 : Fin 2) * 5000 + 1 * p.val = t.val * 5000 + p.val; omega
  · show win3_3.index t (1 : Fin 2) * 128 + 1 * q.val = q.val; omega
  · show win3_3.index t (0 : Fin 2) * 5000 + 1 * p.val = t.val * 5000 + p.val; omega
  · show win3_3.index t (1 : Fin 2) * 128 + 1 * q.val = q.val; omega

/-- An index of the array is in point `t`'s block iff each coordinate is in the block's range on its axis. -/
theorem mem_blk3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v46).slice (win3_3.rect t)).set ↔ _
  rw [View.set_slice_whole, Rect.mem_set_unit]
  exact Iff.rfl

/-- Row r of the array is in the block of point r / 5000. -/
theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  refine ⟨t, flush3_3 t, ?_⟩
  rw [mem_blk3]
  obtain ⟨-, -, -, -, -, -, e30, e31⟩ := idx3 t
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The second layer's epilogue: the output array of the fourth pallas_call after its run. -/
theorem region3 (c : Dev nD) :
    (dat3 (F := Ideal) V c).arrAt 3 cfg3.N = Term.postElu (V c main_v43) (V c main_v44) (V c main_v45) :=
  (dat3 (F := Ideal) V c).arrAt_eq_of_cover 3 (Term.postElu (V c main_v43) (V c main_v44) (V c main_v45))
    (fun t _ => flushed3_eq V c t) cover3

end Cert.KernelIdeal.Val

end
-- ==== Proof.KerRun.lean ====
/-
  The kernel program's run with its result named. At the last boundary the fourth kernel's output array holds
  elu(a · d + b) of what it read; what it read is the sum over incoming edges of the third kernel's output, the degree
  scale as a column and the second bias as a row; the third kernel's output is the second kernel's output times the
  second weights with every row scaled; and so on back to the launch arrays. Put together this is two layers of
  elu(D^(-1/2) · A · D^(-1/2) · h · W + b), the term `Term.kerOut` of the six launch arrays, and the six arrays
  themselves end as launched.
-/
import proofs.«143881_j43413529428079_2_alg».proof.Proof.Gen.KernelIdeal.Frame
import proofs.«143881_j43413529428079_2_alg».proof.Proof.KerTerm
import proofs.«143881_j43413529428079_2_alg».proof.Proof.KerHost
import proofs.«143881_j43413529428079_2_alg».proof.Proof.KerRegionMM
import proofs.«143881_j43413529428079_2_alg».proof.Proof.KerRegionElu
import Idealize.ShloMosaic.Lib.StableHlo.Run

set_option maxRecDepth 16384

noncomputable section

namespace Cert.KernelIdeal.Val

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ## The four kernels' outputs, each as a term of the launch arrays -/

/-- The first kernel leaves x · W1 with every row scaled by the degree scale. -/
theorem out0 (c : Dev nD) : W4 m ρ c (Proc.devRef .tc main_v18)
    = Term.mmScale (m ((c : Thread nD τ).loc main_arg0)) (m ((c : Thread nD τ).loc main_arg2))
        (Term.dcol (m ((c : Thread nD τ).loc main_arg1))) := by
  refine (W4_arr m ρ c 3).trans ((region0 (V3 m ρ) c).trans ?_)
  show Term.mmScale (W3 m ρ c (Proc.devRef .tc main_arg0)) (W3 m ρ c (Proc.devRef .tc main_arg2))
    (W3 m ρ c (Proc.devRef .tc main_v17)) = _
  rw [W3_launch m ρ c main_arg0 (by decide) (by decide) (by decide),
    W3_launch m ρ c main_arg2 (by decide) (by decide) (by decide), W3_dcol m ρ c]

/-- The second kernel leaves the first layer. -/
theorem out1 (c : Dev nD) : W6 m ρ c (Proc.devRef .tc main_v31)
    = Term.layerV (m ((c : Thread nD τ).loc main_arg1)) (m ((c : Thread nD τ).loc main_arg0))
        (m ((c : Thread nD τ).loc main_arg2)) (m ((c : Thread nD τ).loc main_arg3)) := by
  refine (W6_arr m ρ c 3).trans ((region1 (V5 m ρ) c).trans ?_)
  show Term.postElu (W5 m ρ c (Proc.devRef .tc main_v28)) (W5 m ρ c (Proc.devRef .tc main_v29))
    (W5 m ρ c (Proc.devRef .tc main_v30)) = _
  rw [W5_agg m ρ c, W5_dcol m ρ c, W5_bias m ρ c, out0 m ρ c]
  rfl

/-- The third kernel leaves the first layer times W2 with every row scaled by the degree scale. -/
theorem out2 (c : Dev nD) : W8 m ρ c (Proc.devRef .tc main_v33)
    = Term.mmScale (Term.layerV (m ((c : Thread nD τ).loc main_arg1)) (m ((c : Thread nD τ).loc main_arg0))
          (m ((c : Thread nD τ).loc main_arg2)) (m ((c : Thread nD τ).loc main_arg3)))
        (m ((c : Thread nD τ).loc main_arg4)) (Term.dcol (m ((c : Thread nD τ).loc main_arg1))) := by
  refine (W8_arr m ρ c 3).trans ((region2 (V7 m ρ) c).trans ?_)
  show Term.mmScale (W7 m ρ c (Proc.devRef .tc main_v31)) (W7 m ρ c (Proc.devRef .tc main_arg4))
    (W7 m ρ c (Proc.devRef .tc main_v32)) = _
  rw [W7_h1 m ρ c, out1 m ρ c, W7_W2 m ρ c, W7_dcol m ρ c]

/-- The fourth kernel leaves the second layer: the program's result. -/
theorem out3 (c : Dev nD) : W10 m ρ c (Proc.devRef .tc main_v46)
    = Term.kerOut (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (W10_arr m ρ c 3).trans ((region3 (V9 m ρ) c).trans ?_)
  show Term.postElu (W9 m ρ c (Proc.devRef .tc main_v43)) (W9 m ρ c (Proc.devRef .tc main_v44))
    (W9 m ρ c (Proc.devRef .tc main_v45)) = _
  rw [W9_agg m ρ c, W9_dcol m ρ c, W9_bias m ρ c, out2 m ρ c]
  rfl

/-! ## The run -/

set_option backward.isDefEq.respectTransparency.types false in
/-- From any memory with zero counters every weakly fair execution of the kernel program terminates, nothing faulting;
    the result array ends at `Term.kerOut` of the launch arrays and the six argument arrays end as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v46)
        = Term.kerOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨(h c _ (mem_uc main_v46 (by decide))).trans (out3 m ρ c),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.Val

end
-- ==== Proof.RefTerm.lean ====
/-
  The reference's result as ONE term of its argument arrays: the graph convolution written stage by stage.
  `srcW`, `dstW` are the edge list's two rows with the self loops appended; `degV` counts, per node, the edges that
  end there; `dinvV` is deg^(-1/2) where the count is positive and 0 elsewhere; a layer multiplies the features by
  the weights, sends row `src e` scaled by dinv(src e)·dinv(dst e) along every edge `e`, sums what arrives at each
  node, adds the bias and applies elu.
-/
import proofs.«143881_j43413529428079_2_alg».proof.ReferenceIdeal

noncomputable section

namespace Cert.ReferenceIdeal.Term

open Idealize.ShloMosaic Cert.ReferenceIdeal Cert.ReferenceIdeal.Facts₀

variable (F : FTy → Type) [FloatOps F]

/-- The contents of a tensor value of shape `s` and element type `e`. -/
abbrev Ten (s : Shape) (e : EltTy) : Type := (⟨s, e⟩ : BufTy).Contents (Elt F)

variable {F} [Facts]

/-- Row `r` of the edge list followed by the node ids 0 … N-1 (one self loop per node). -/
def rowW (r : Nat) (h : S2x800000.Slices ![r, 0] S1x800000) (ei : Ten F S2x800000 .i32) : Ten F S850000 .i32 :=
  concatenate S850000 0 [⟨S800000, shapeCast S800000 (extractStridedSlice S1x800000 ![r, 0] ei h) shapeCasts_S1x800000_S800000⟩,
    ⟨S50000, iotaInDim S50000 32 0⟩] concatenates_S800000_S50000_S850000_d0

/-- The edges' source words. -/
def srcW (ei : Ten F S2x800000 .i32) : Ten F S850000 .i32 := rowW 0 slices_S2x800000_S1x800000_0_0 ei
/-- The edges' destination words. -/
def dstW (ei : Ten F S2x800000 .i32) : Ten F S850000 .i32 := rowW 1 slices_S2x800000_S1x800000_1_0 ei

/-- A vector of index words kept as a column. -/
def col (v : Ten F S850000 .i32) : Ten F S850000x1 .i32 := broadcastInDim S850000x1 ![0] bcast_S850000_S850000x1_0 v

/-- A negative index word counts from the end: w + N when w < 0. -/
def normW (v : Ten F S850000 .i32) : Ten F S850000 .i32 :=
  select (cmpi .slt v (broadcastInDim S850000 ![] bcast_S_S850000 (constantI S_ 32 0#32)))
    (addi v (broadcastInDim S850000 ![] bcast_S_S850000 (constantI S_ 32 50000#32))) v

def zerosN : Ten F S50000 .f32 := broadcastInDim S50000 ![] bcast_S_S50000 (constant S_ .f32 0x00000000#32)
def zerosNC : Ten F S50000x128 .f32 := broadcastInDim S50000x128 ![] bcast_S_S50000x128 (constant S_ .f32 0x00000000#32)

/-- The number of edges ending at each node: a one added per edge. -/
def degV (ei : Ten F S2x800000 .i32) : Ten F S50000 .f32 :=
  Host.scatterAdd scatter_S50000_S850000x1_S850000_n_0_0_1 zerosN (col (dstW ei))
    (broadcastInDim S850000 ![] bcast_S_S850000 (constant S_ .f32 0x3F800000#32))

/-- deg^(-1/2) where deg > 0, else 0. -/
def dinvV (ei : Ten F S2x800000 .i32) : Ten F S50000 .f32 :=
  select (cmpf .ogt (degV ei) zerosN) (Host.rsqrt (degV ei))
    (broadcastInDim S50000 ![] bcast_S_S50000 (id (constant S_ .f32 0x00000000#32)))

/-- Per edge, dinv(src) · dinv(dst). -/
def nrmV (ei : Ten F S2x800000 .i32) : Ten F S850000 .f32 :=
  mulf (Host.gather gather_S50000_S850000x1_S850000_n_0_n_n_0_1_1 (dinvV ei) (col (normW (srcW ei))))
    (Host.gather gather_S50000_S850000x1_S850000_n_0_n_n_0_1_1 (dinvV ei) (col (normW (dstW ei))))

/-- elu: o where o > 0, else 1 · expm1(o) (the argument of expm1 guarded to 0 where o > 0). -/
def eluV (o : Ten F S50000x128 .f32) : Ten F S50000x128 .f32 :=
  select (cmpf .ogt o zerosNC) o
    (mulf (broadcastInDim S50000x128 ![] bcast_S_S50000x128 (constant S_ .f32 0x3F800000#32))
      (Host.expm1 (select (cmpf .ogt o zerosNC) (broadcastInDim S50000x128 ![] bcast_S_S50000x128 (id (constant S_ .f32 0x00000000#32))) o)))

/-- One layer before elu: the messages (h·W)[src e] · nrm e summed at dst e, plus the bias. -/
def preV (ei : Ten F S2x800000 .i32) (h : Ten F S50000x128 .f32) (W : Ten F S128x128 .f32) (b : Ten F S128 .f32) : Ten F S50000x128 .f32 :=
  addf (Host.scatterAdd scatter_S50000x128_S850000x1_S850000x128_1_0_0_1 zerosNC (col (dstW ei))
      (mulf (Host.gather gather_S50000x128_S850000x1_S850000x128_1_0_n_n_0_1_1128
              (Host.dotGeneral dot_S50000x128_S128x128_S50000x128_1_0_0_1_n_n none h W) (col (normW (srcW ei))))
            (broadcastInDim S850000x128 ![0, 1] bcast_S850000x1_S850000x128_0_1
              (broadcastInDim S850000x1 ![0] bcast_S850000_S850000x1_0 (nrmV ei)))))
    (broadcastInDim S50000x128 ![0, 1] bcast_S1x128_S50000x128_0_1 (broadcastInDim S1x128 ![1] bcast_S128_S1x128_1 b))

/-- One layer. -/
def layerV (ei : Ten F S2x800000 .i32) (h : Ten F S50000x128 .f32) (W : Ten F S128x128 .f32) (b : Ten F S128 .f32) : Ten F S50000x128 .f32 :=
  eluV (preV ei h W b)

/-- The reference's result: two layers. -/
def refOut (x : Ten F S50000x128 .f32) (ei : Ten F S2x800000 .i32) (W1 : Ten F S128x128 .f32) (b1 : Ten F S128 .f32)
    (W2 : Ten F S128x128 .f32) (b2 : Ten F S128 .f32) : Ten F S50000x128 .f32 :=
  layerV ei (layerV ei x W1 b1) W2 b2

end Cert.ReferenceIdeal.Term

end
-- ==== Proof.RefRun.lean ====
/-
  The reference program's run: @main as one straight line of host operations, the three calls (the guarded
  inverse square root's `where`, and `elu` twice, itself calling two `where`s) written out at their call sites over
  the calls' own buffers, and what every execution leaves in the result buffer: the composed term `Term.refOut` of
  the six argument arrays, the arguments unchanged.
-/
import proofs.«143881_j43413529428079_2_alg».proof.Proof.Gen.ReferenceIdeal
import proofs.«143881_j43413529428079_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 110 operations, in order, the calls written out. -/
abbrev ops : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    TRef.unary (.of main_cst_2 : TRef sig ⟨S_, .f32⟩) main_call0.v0 id,
    TRef.unary main_call0.v0 main_call0.v1 (broadcastInDim S50000 ![] bcast_S_S50000),
    TRef.ternary (.of main_v12 : TRef sig ⟨S50000, .i1⟩) (.of main_v13 : TRef sig ⟨S50000, .f32⟩) main_call0.v1 main_call0.v2 select,
    StableHlo.nullary main_c (constantI S_ 32 0#32),
    StableHlo.unary main_c main_v15 (broadcastInDim S850000 ![] bcast_S_S850000 : (⟨S_, .i32⟩ : BufTy).Contents (Elt F) → (⟨S850000, .i32⟩ : BufTy).Contents (Elt F)),
    StableHlo.binary main_v3 main_v15 main_v16 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v17 (broadcastInDim S850000 ![] bcast_S_S850000 : (⟨S_, .i32⟩ : BufTy).Contents (Elt F) → (⟨S850000, .i32⟩ : BufTy).Contents (Elt F)),
    StableHlo.binary main_v3 main_v17 main_v18 (addi : (⟨S850000, .i32⟩ : BufTy).Contents (Elt F) → (⟨S850000, .i32⟩ : BufTy).Contents (Elt F) → (⟨S850000, .i32⟩ : BufTy).Contents (Elt F)),
    StableHlo.ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v19 main_v20 (broadcastInDim S850000x1 ![0] bcast_S850000_S850000x1_0 : (⟨S850000, .i32⟩ : BufTy).Contents (Elt F) → (⟨S850000x1, .i32⟩ : BufTy).Contents (Elt F)),
    StableHlo.binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v22 (broadcastInDim S850000 ![] bcast_S_S850000 : (⟨S_, .i32⟩ : BufTy).Contents (Elt F) → (⟨S850000, .i32⟩ : BufTy).Contents (Elt F)),
    StableHlo.binary main_v6 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v21 main_v28 main_v29 (mulf : (⟨S850000, .f32⟩ : BufTy).Contents (Elt F) → (⟨S850000, .f32⟩ : BufTy).Contents (Elt F) → (⟨S850000, .f32⟩ : BufTy).Contents (Elt F)),
    StableHlo.binary main_arg0 main_arg2 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_6 (constantI S_ 32 0#32),
    StableHlo.unary main_c_6 main_v31 (broadcastInDim S850000 ![] bcast_S_S850000 : (⟨S_, .i32⟩ : BufTy).Contents (Elt F) → (⟨S850000, .i32⟩ : BufTy).Contents (Elt F)),
    StableHlo.binary main_v3 main_v31 main_v32 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v33 (broadcastInDim S850000 ![] bcast_S_S850000 : (⟨S_, .i32⟩ : BufTy).Contents (Elt F) → (⟨S850000, .i32⟩ : BufTy).Contents (Elt F)),
    StableHlo.binary main_v3 main_v33 main_v34 (addi : (⟨S850000, .i32⟩ : BufTy).Contents (Elt F) → (⟨S850000, .i32⟩ : BufTy).Contents (Elt F) → (⟨S850000, .i32⟩ : BufTy).Contents (Elt F)),
    StableHlo.ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v35 main_v36 (broadcastInDim S850000x1 ![0] bcast_S850000_S850000x1_0 : (⟨S850000, .i32⟩ : BufTy).Contents (Elt F) → (⟨S850000x1, .i32⟩ : BufTy).Contents (Elt F)),
    StableHlo.binary main_v30 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v29 main_v38 (broadcastInDim S850000x1 ![0] bcast_S850000_S850000x1_0 : (⟨S850000, .f32⟩ : BufTy).Contents (Elt F) → (⟨S850000x1, .f32⟩ : BufTy).Contents (Elt F)),
    StableHlo.unary main_v38 main_v39 (broadcastInDim S850000x128 ![0, 1] bcast_S850000x1_S850000x128_0_1 : (⟨S850000x1, .f32⟩ : BufTy).Contents (Elt F) → (⟨S850000x128, .f32⟩ : BufTy).Contents (Elt F)),
    StableHlo.binary main_v37 main_v39 main_v40 (mulf : (⟨S850000x128, .f32⟩ : BufTy).Contents (Elt F) → (⟨S850000x128, .f32⟩ : BufTy).Contents (Elt F) → (⟨S850000x128, .f32⟩ : BufTy).Contents (Elt F)),
    StableHlo.nullary main_cst_8 (constant S_ .f32 0x00000000#32),
    StableHlo.unary main_cst_8 main_v41 (broadcastInDim S50000x128 ![] bcast_S_S50000x128 : (⟨S_, .f32⟩ : BufTy).Contents (Elt F) → (⟨S50000x128, .f32⟩ : BufTy).Contents (Elt F)),
    StableHlo.unary main_v6 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg3 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v46 : TRef sig ⟨S50000x128, .f32⟩) main_call1.v0 main_call1.v1 (cmpf .ogt),
    TRef.nullary main_call1.cst_0 (constant S_ .f32 0x00000000#32),
    TRef.unary main_call1.cst_0 main_call1.v2 (broadcastInDim S50000x128 ![] bcast_S_S50000x128),
    TRef.binary (.of main_v46 : TRef sig ⟨S50000x128, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S50000x128 ![] bcast_S_S50000x128),
    TRef.ternary main_call1.v3 main_call1.call0.v1 (.of main_v46 : TRef sig ⟨S50000x128, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S50000x128 ![] bcast_S_S50000x128),
    TRef.binary main_call1.v6 main_call1.v5 main_call1.v7 mulf,
    TRef.ternary main_call1.v1 (.of main_v46 : TRef sig ⟨S50000x128, .f32⟩) main_call1.v7 main_call1.call1.v0 select,
    StableHlo.binary main_v47 main_arg4 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_9 (constantI S_ 32 0#32),
    StableHlo.unary main_c_9 main_v49 (broadcastInDim S850000 ![] bcast_S_S850000 : (⟨S_, .i32⟩ : BufTy).Contents (Elt F) → (⟨S850000, .i32⟩ : BufTy).Contents (Elt F)),
    StableHlo.binary main_v3 main_v49 main_v50 (cmpi .slt : (⟨S850000, .i32⟩ : BufTy).Contents (Elt F) → (⟨S850000, .i32⟩ : BufTy).Contents (Elt F) → (⟨S850000, .i1⟩ : BufTy).Contents (Elt F)),
    StableHlo.nullary main_c_10 (constantI S_ 32 50000#32),
    StableHlo.unary main_c_10 main_v51 (broadcastInDim S850000 ![] bcast_S_S850000 : (⟨S_, .i32⟩ : BufTy).Contents (Elt F) → (⟨S850000, .i32⟩ : BufTy).Contents (Elt F)),
    StableHlo.binary main_v3 main_v51 main_v52 (addi : (⟨S850000, .i32⟩ : BufTy).Contents (Elt F) → (⟨S850000, .i32⟩ : BufTy).Contents (Elt F) → (⟨S850000, .i32⟩ : BufTy).Contents (Elt F)),
    StableHlo.ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v53 main_v54 (broadcastInDim S850000x1 ![0] bcast_S850000_S850000x1_0 : (⟨S850000, .i32⟩ : BufTy).Contents (Elt F) → (⟨S850000x1, .i32⟩ : BufTy).Contents (Elt F)),
    StableHlo.binary main_v48 main_v54 main_v55 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v29 main_v56 (broadcastInDim S850000x1 ![0] bcast_S850000_S850000x1_0 : (⟨S850000, .f32⟩ : BufTy).Contents (Elt F) → (⟨S850000x1, .f32⟩ : BufTy).Contents (Elt F)),
    StableHlo.unary main_v56 main_v57 (broadcastInDim S850000x128 ![0, 1] bcast_S850000x1_S850000x128_0_1 : (⟨S850000x1, .f32⟩ : BufTy).Contents (Elt F) → (⟨S850000x128, .f32⟩ : BufTy).Contents (Elt F)),
    StableHlo.binary main_v55 main_v57 main_v58 (mulf : (⟨S850000x128, .f32⟩ : BufTy).Contents (Elt F) → (⟨S850000x128, .f32⟩ : BufTy).Contents (Elt F) → (⟨S850000x128, .f32⟩ : BufTy).Contents (Elt F)),
    StableHlo.nullary main_cst_11 (constant S_ .f32 0x00000000#32),
    StableHlo.unary main_cst_11 main_v59 (broadcastInDim S50000x128 ![] bcast_S_S50000x128 : (⟨S_, .f32⟩ : BufTy).Contents (Elt F) → (⟨S50000x128, .f32⟩ : BufTy).Contents (Elt F)),
    StableHlo.unary main_v6 main_v60 (broadcastInDim S850000x1 ![0] bcast_S850000_S850000x1_0 : (⟨S850000, .i32⟩ : BufTy).Contents (Elt F) → (⟨S850000x1, .i32⟩ : BufTy).Contents (Elt F)),
    StableHlo.ternary main_v59 main_v60 main_v58 main_v61 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg5 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S50000x128 ![0, 1] bcast_S1x128_S50000x128_0_1 : (⟨S1x128, .f32⟩ : BufTy).Contents (Elt F) → (⟨S50000x128, .f32⟩ : BufTy).Contents (Elt F)),
    StableHlo.binary main_v61 main_v63 main_v64 (addf : (⟨S50000x128, .f32⟩ : BufTy).Contents (Elt F) → (⟨S50000x128, .f32⟩ : BufTy).Contents (Elt F) → (⟨S50000x128, .f32⟩ : BufTy).Contents (Elt F)),
    TRef.nullary main_call2.cst (constant S_ .f32 0x00000000#32),
    TRef.unary main_call2.cst main_call2.v0 (broadcastInDim S50000x128 ![] bcast_S_S50000x128),
    TRef.binary (.of main_v64 : TRef sig ⟨S50000x128, .f32⟩) main_call2.v0 main_call2.v1 (cmpf .ogt),
    TRef.nullary main_call2.cst_0 (constant S_ .f32 0x00000000#32),
    TRef.unary main_call2.cst_0 main_call2.v2 (broadcastInDim S50000x128 ![] bcast_S_S50000x128),
    TRef.binary (.of main_v64 : TRef sig ⟨S50000x128, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S50000x128 ![] bcast_S_S50000x128),
    TRef.ternary main_call2.v3 main_call2.call0.v1 (.of main_v64 : TRef sig ⟨S50000x128, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S50000x128 ![] bcast_S_S50000x128),
    TRef.binary main_call2.v6 main_call2.v5 main_call2.v7 mulf,
    TRef.ternary main_call2.v1 (.of main_v64 : TRef sig ⟨S50000x128, .f32⟩) main_call2.v7 main_call2.call1.v0 select ]

set_option maxRecDepth 8192 in
set_option maxHeartbeats 4000000 in
/-- @main is that straight line: the windows and the called functions unfolded, sequencing reassociated. -/
theorem main_eq (c : Dev nD) : main (F := F) c = seq ops := by
  simp only [main, main_part0, main_part1, fn_elu.body, fn_where.body, fn_where_0.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

set_option maxRecDepth 8192 in
set_option maxHeartbeats 40000000 in
/-- The fold at the result buffer: each operation's result read at its own buffer and passed over at every other,
    what is left is the composed term with its definitions unfolded (the calls' buffers carry their values' types,
    so the moves between a buffer's type and its value's are the identity). -/
theorem out_eq (V : Valuation τ sig (Elt F)) :
    after ops V (main_v65 : DevRef τ sig)
      = Term.refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

set_option maxRecDepth 8192 in
set_option maxHeartbeats 4000000 in
/-- No operation writes argument 0's buffer. -/
theorem arg0_eq (V : Valuation τ sig (Elt F)) :
    after ops V (main_arg0 : DevRef τ sig) = V (main_arg0 : DevRef τ sig) := by
  after_results_simp

set_option maxRecDepth 8192 in
set_option maxHeartbeats 4000000 in
/-- No operation writes argument 1's buffer. -/
theorem arg1_eq (V : Valuation τ sig (Elt F)) :
    after ops V (main_arg1 : DevRef τ sig) = V (main_arg1 : DevRef τ sig) := by
  after_results_simp

set_option maxRecDepth 8192 in
set_option maxHeartbeats 4000000 in
/-- No operation writes argument 2's buffer. -/
theorem arg2_eq (V : Valuation τ sig (Elt F)) :
    after ops V (main_arg2 : DevRef τ sig) = V (main_arg2 : DevRef τ sig) := by
  after_results_simp

set_option maxRecDepth 8192 in
set_option maxHeartbeats 4000000 in
/-- No operation writes argument 3's buffer. -/
theorem arg3_eq (V : Valuation τ sig (Elt F)) :
    after ops V (main_arg3 : DevRef τ sig) = V (main_arg3 : DevRef τ sig) := by
  after_results_simp

set_option maxRecDepth 8192 in
set_option maxHeartbeats 4000000 in
/-- No operation writes argument 4's buffer. -/
theorem arg4_eq (V : Valuation τ sig (Elt F)) :
    after ops V (main_arg4 : DevRef τ sig) = V (main_arg4 : DevRef τ sig) := by
  after_results_simp

set_option maxRecDepth 8192 in
set_option maxHeartbeats 4000000 in
/-- No operation writes argument 5's buffer. -/
theorem arg5_eq (V : Valuation τ sig (Elt F)) :
    after ops V (main_arg5 : DevRef τ sig) = V (main_arg5 : DevRef τ sig) := by
  after_results_simp

/-- On every device, for any float values, from any memory with zero counters: every weakly fair execution of
    @main terminates with the result buffer at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = Term.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c))⟩)
    (run_seq scopedRefs_eq scopedSems_eq defs main (fun _ => ops) main_eq (fun _ => ops_sub) m ρ)

/-- info: 'Cert.ReferenceIdeal.RefRun.run' depends on axioms: [propext, Classical.choice, Quot.sound] -/
#guard_msgs in #print axioms run

end Cert.ReferenceIdeal.RefRun

end
-- ==== Proof.Spec.lean ====
/-
  The mathematics of the two-layer graph convolution, on the extended reals, with the edge list abstract.

  Edge e ends at the node `dst e` (an integer; an edge whose `dst` is no node id ends nowhere), starts at the node `s e`,
  and `t e` is the node the reference reads dinv at for its end: it is `dst e` whenever `dst e` is a node id. `into i` are
  the edges that end at node i, `deg i` their number, `dinv i` = deg^(-1/2) where deg > 0 and 0 elsewhere.

  One program scales the projected features by dinv at the source before sending them along the edges and by dinv at the
  target after summing; the other scales every message by dinv(source)·dinv(target) and then sums. The two agree because
  dinv(target) is a non-negative real, which distributes over the sum, and because a positive count is at least one, so
  the guard max(deg, 1) changes nothing. The two spellings of elu agree on every extended real.
-/
import Mathlib
import Idealize.ShloMosaic.PureOps.Ideal

noncomputable section

namespace Cert.Gcn

open Idealize.ShloMosaic

abbrev NN : Nat := 50000
abbrev EE : Nat := 850000
abbrev CC : Nat := 128

/-- The f32 word 0.0. -/
abbrev z0 : EReal := Ideal.ofBits .f32 0x00000000#32
/-- The f32 word 1.0. -/
abbrev o1 : EReal := Ideal.ofBits .f32 0x3F800000#32

/-- The comparison x > y as the programs compute it: a bit. -/
abbrev gt (x y : EReal) : BitVec 1 := FloatOps.cmpf (F := Ideal) (φ := .f32) .ogt x y

variable (dst : Fin EE → Int) (s t : Fin EE → Fin NN)

/-- The edges that end at node i. -/
def into (i : Fin NN) : Finset (Fin EE) := Finset.univ.filter (fun e => dst e = (i.val : Int))

/-- The number of edges that end at node i, as the programs compute it: 0.0 plus a 1.0 per edge. -/
def deg (i : Fin NN) : EReal := z0 + ∑ _e ∈ into dst i, o1

/-- dinv with the guard max(deg, 1). -/
def dinvK (i : Fin NN) : EReal := Scalar.select (gt (deg dst i) z0) (Ideal.rsqrt (max (deg dst i) o1)) z0
/-- dinv without the guard. -/
def dinvR (i : Fin NN) : EReal := Scalar.select (gt (deg dst i) z0) (Ideal.rsqrt (deg dst i)) z0

/-- elu spelt with exp(min(v, 0)) − 1. -/
def eluK (v : EReal) : EReal := Scalar.select (gt v z0) v (Ideal.exp (min v z0) - o1)
/-- elu spelt with 1 · expm1 of the guarded argument. -/
def eluR (v : EReal) : EReal := Scalar.select (gt v z0) v (o1 * (Ideal.exp (Scalar.select (gt v z0) z0 v) - 1))

/-- (h·W) at (i, c). -/
def prod (h : Fin NN → Fin CC → EReal) (W : Fin CC → Fin CC → EReal) (i : Fin NN) (c : Fin CC) : EReal := ∑ k : Fin CC, h i k * W k c

/-- A layer before elu, scaled at the source before the sum and at the target after it. -/
def preK (d : Fin NN → EReal) (h : Fin NN → Fin CC → EReal) (W : Fin CC → Fin CC → EReal) (b : Fin CC → EReal) (i : Fin NN) (c : Fin CC) : EReal :=
  (z0 + ∑ e ∈ into dst i, prod h W (s e) c * d (s e)) * d i + b c
/-- A layer before elu, every message scaled by dinv(source)·dinv(target). -/
def preR (d : Fin NN → EReal) (h : Fin NN → Fin CC → EReal) (W : Fin CC → Fin CC → EReal) (b : Fin CC → EReal) (i : Fin NN) (c : Fin CC) : EReal :=
  (z0 + ∑ e ∈ into dst i, prod h W (s e) c * (d (s e) * d (t e))) + b c

def layerK (d : Fin NN → EReal) (h : Fin NN → Fin CC → EReal) (W : Fin CC → Fin CC → EReal) (b : Fin CC → EReal) (i : Fin NN) (c : Fin CC) : EReal :=
  eluK (preK dst s d h W b i c)
def layerR (d : Fin NN → EReal) (h : Fin NN → Fin CC → EReal) (W : Fin CC → Fin CC → EReal) (b : Fin CC → EReal) (i : Fin NN) (c : Fin CC) : EReal :=
  eluR (preR dst s t d h W b i c)

/-- Two layers, the first program's way. -/
def outK (x : Fin NN → Fin CC → EReal) (W1 : Fin CC → Fin CC → EReal) (b1 : Fin CC → EReal) (W2 : Fin CC → Fin CC → EReal) (b2 : Fin CC → EReal) :
    Fin NN → Fin CC → EReal :=
  layerK dst s (dinvK dst) (layerK dst s (dinvK dst) x W1 b1) W2 b2
/-- Two layers, the second program's way. -/
def outR (x : Fin NN → Fin CC → EReal) (W1 : Fin CC → Fin CC → EReal) (b1 : Fin CC → EReal) (W2 : Fin CC → Fin CC → EReal) (b2 : Fin CC → EReal) :
    Fin NN → Fin CC → EReal :=
  layerR dst s t (dinvR dst) (layerR dst s t (dinvR dst) x W1 b1) W2 b2

/-! ### The words 0.0 and 1.0, and the comparison bit -/

/-- The f32 word 0.0 is the number 0. -/
theorem z0_eq : z0 = 0 := by simp [Ideal.ofBits, Ideal.ieee]

/-- The f32 word 1.0 is the number 1. -/
theorem o1_eq : o1 = 1 := by
  simp [Ideal.ofBits, Ideal.ieee, -EReal.coe_mul] <;> norm_num

/-- The comparison bit is set exactly when x > y. -/
theorem gt_iff (x y : EReal) : gt x y = 1 ↔ y < x := by
  show BitVec.ofBool (decide (y < x)) = 1#1 ↔ y < x
  by_cases h : y < x <;> simp [h]

/-- A choice on the comparison bit is a choice on x > y. -/
theorem sel_gt {α : Type} (x y : EReal) (a b : α) :
    Scalar.select (gt x y) a b = if y < x then a else b := by
  unfold Scalar.select
  by_cases h : y < x
  · rw [if_pos ((gt_iff x y).2 h), if_pos h]
  · rw [if_neg (fun h' => h ((gt_iff x y).1 h')), if_neg h]

/-! ### The count of incoming edges -/

/-- The count of incoming edges is a natural number. -/
theorem deg_eq (i : Fin NN) : deg dst i = (((into dst i).card : ℕ) : EReal) := by
  unfold deg
  rw [z0_eq, o1_eq, zero_add, Finset.sum_const, nsmul_one]

/-! ### A non-negative real distributes over a finite sum of extended reals -/

theorem sum_mul_coe {ι : Type} (S : Finset ι) (f : ι → EReal) (r : ℝ) (hr : 0 ≤ r) :
    (∑ e ∈ S, f e) * (r : EReal) = ∑ e ∈ S, f e * (r : EReal) := by
  classical
  induction S using Finset.induction_on with
  | empty => rw [Finset.sum_empty, Finset.sum_empty, zero_mul]
  | insert a S ha ih =>
    rw [Finset.sum_insert ha, Finset.sum_insert ha,
      EReal.right_distrib_of_nonneg_of_ne_top (EReal.coe_nonneg.2 hr) (EReal.coe_ne_top r), ih]

/-- The two spellings of elu are one function. -/
theorem elu_eq (v : EReal) : eluK v = eluR v := by
  unfold eluK eluR
  rw [sel_gt, sel_gt, sel_gt, z0_eq, o1_eq]
  by_cases h : (0 : EReal) < v
  · rw [if_pos h, if_pos h]
  · rw [if_neg h, if_neg h, if_neg h, min_eq_left (not_lt.1 h), one_mul]

/-- The guard max(deg, 1) changes nothing: a positive count is at least one. -/
theorem dinv_eq : dinvK dst = dinvR dst := by
  funext i
  unfold dinvK dinvR
  rw [sel_gt, sel_gt]
  by_cases h : z0 < deg dst i
  · rw [if_pos h, if_pos h]
    have h1 : o1 ≤ deg dst i := by
      rw [z0_eq, deg_eq, ← Nat.cast_zero, EReal.natCast_lt_iff] at h
      rw [o1_eq, deg_eq, ← Nat.cast_one, EReal.natCast_le_iff]
      exact h
    rw [max_eq_left h1]
  · rw [if_neg h, if_neg h]

/-- dinv is a non-negative real. -/
theorem dinvR_real (i : Fin NN) : ∃ r : ℝ, 0 ≤ r ∧ dinvR dst i = (r : EReal) := by
  unfold dinvR
  rw [sel_gt]
  by_cases h : z0 < deg dst i
  · rw [if_pos h]
    rw [z0_eq, deg_eq, ← Nat.cast_zero, EReal.natCast_lt_iff] at h
    have hpos : (0 : ℝ) < (((into dst i).card : ℕ) : ℝ) := Nat.cast_pos.2 h
    refine ⟨(Real.sqrt (((into dst i).card : ℕ) : ℝ))⁻¹, inv_nonneg.2 (Real.sqrt_nonneg _), ?_⟩
    rw [deg_eq, ← EReal.coe_coe_eq_natCast, Ideal.rsqrt_coe, if_neg (not_lt.2 hpos.le), if_neg hpos.ne']
  · rw [if_neg h]
    exact ⟨0, le_refl _, by rw [z0_eq, EReal.coe_zero]⟩

/-- Scaling at the source and the target separately, or every message by the product, is the same sum. -/
theorem pre_eq (ht : ∀ i, ∀ e ∈ into dst i, t e = i) (d : Fin NN → EReal) (hd : ∀ i, ∃ r : ℝ, 0 ≤ r ∧ d i = (r : EReal))
    (h : Fin NN → Fin CC → EReal) (W : Fin CC → Fin CC → EReal) (b : Fin CC → EReal) :
    preK dst s d h W b = preR dst s t d h W b := by
  funext i c
  unfold preK preR
  obtain ⟨r, hr, hdi⟩ := hd i
  have hsum : ∑ e ∈ into dst i, prod h W (s e) c * (d (s e) * d (t e))
      = ∑ e ∈ into dst i, prod h W (s e) c * d (s e) * (r : EReal) := by
    refine Finset.sum_congr rfl (fun e he => ?_)
    rw [ht i e he, hdi, mul_assoc]
  rw [hsum, hdi, z0_eq, zero_add, zero_add, sum_mul_coe _ _ r hr]

/-- The two programs' results are one function of the inputs. -/
theorem out_eq (ht : ∀ i, ∀ e ∈ into dst i, t e = i)
    (x : Fin NN → Fin CC → EReal) (W1 : Fin CC → Fin CC → EReal) (b1 : Fin CC → EReal) (W2 : Fin CC → Fin CC → EReal) (b2 : Fin CC → EReal) :
    outK dst s x W1 b1 W2 b2 = outR dst s t x W1 b1 W2 b2 := by
  have L : ∀ (h : Fin NN → Fin CC → EReal) (W : Fin CC → Fin CC → EReal) (b : Fin CC → EReal),
      layerK dst s (dinvK dst) h W b = layerR dst s t (dinvR dst) h W b := by
    intro h W b
    funext i c
    unfold layerK layerR
    rw [dinv_eq, pre_eq dst s t ht (dinvR dst) (dinvR_real dst), elu_eq]
  unfold outK outR
  rw [L, L]

end Cert.Gcn

end
-- ==== Proof.LibScatterAdd.lean ====
/-
  Two general facts about an accumulating scatter read at one element of its result.

  1. `ScatterDims.resultIdx?_eq_some_iff`: update index `j` lands on the operand index `i` exactly when, on every operand
     axis, the window's start plus the window coordinate IS `i`'s coordinate (as integers: the start is read signed and is
     not clamped, and an update that leaves the operand lands nowhere).
  2. `sum_filter_two`: a sum over the indices satisfying a predicate that has at most two solutions, `a` (when `ca`)
     and `b` (when `cb`), is the sum of the two terms that are there. In an overlap-add every output sample is met by
     at most two update elements; the same shape serves any scatter whose colliding updates are at most two.
  Together with `Ideal.hostScatterAdd` (the operand element plus the sum of the updates that land on it) they read the
  scatter at an index without listing the updates.
-/
import Idealize.ShloMosaic.PureOps.Ideal

namespace Idealize.ShloMosaic

namespace ScatterDims

variable {s si u : Shape} (d : ScatterDims s si u)

/-- Update index `j` lands on `i` iff start plus window coordinate is `i`'s coordinate on every operand axis. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      have := h a
      show d.start j idx a + (d.window j a : Int) = (((d.start j idx a + (d.window j a : Int)).toNat : Nat) : Int)
      omega
    · intro hh
      funext a
      apply Fin.ext
      have := hh a
      show (d.start j idx a + (d.window j a : Int)).toNat = (i a).val
      omega
  · rename_i h
    constructor
    · intro hh; exact absurd hh (by simp)
    · intro hh
      exact absurd (fun a => by have := hh a; have := (i a).isLt; omega) h

end ScatterDims

/-- A sum over the solutions of a predicate with at most two solutions: `a` when `ca` holds, `b` when `cb` holds. -/
theorem sum_filter_two {ι M : Type*} [Fintype ι] [DecidableEq ι] [AddCommMonoid M] (P : ι → Prop) [DecidablePred P]
    (f : ι → M) (a b : ι) (ca cb : Prop) [Decidable ca] [Decidable cb] (hab : a ≠ b)
    (hP : ∀ j, P j ↔ (ca ∧ j = a) ∨ (cb ∧ j = b)) :
    ∑ j ∈ Finset.univ.filter P, f j = (if ca then f a else 0) + (if cb then f b else 0) := by
  by_cases ha : ca <;> by_cases hb : cb
  · have e : Finset.univ.filter P = {a, b} := by
      ext j; simp only [Finset.mem_filter, Finset.mem_univ, true_and, Finset.mem_insert, Finset.mem_singleton, hP j]
      constructor
      · rintro (⟨-, h⟩ | ⟨-, h⟩)
        · exact Or.inl h
        · exact Or.inr h
      · rintro (h | h)
        · exact Or.inl ⟨ha, h⟩
        · exact Or.inr ⟨hb, h⟩
    rw [e, Finset.sum_pair hab, if_pos ha, if_pos hb]
  · have e : Finset.univ.filter P = {a} := by
      ext j; simp only [Finset.mem_filter, Finset.mem_univ, true_and, Finset.mem_singleton, hP j]
      constructor
      · rintro (⟨-, h⟩ | ⟨h, -⟩)
        · exact h
        · exact absurd h hb
      · intro h; exact Or.inl ⟨ha, h⟩
    rw [e, Finset.sum_singleton, if_pos ha, if_neg hb, add_zero]
  · have e : Finset.univ.filter P = {b} := by
      ext j; simp only [Finset.mem_filter, Finset.mem_univ, true_and, Finset.mem_singleton, hP j]
      constructor
      · rintro (⟨h, -⟩ | ⟨-, h⟩)
        · exact absurd h ha
        · exact h
      · intro h; exact Or.inr ⟨hb, h⟩
    rw [e, Finset.sum_singleton, if_neg ha, if_pos hb, zero_add]
  · have e : Finset.univ.filter P = ∅ := by
      ext j; simp only [Finset.mem_filter, Finset.mem_univ, true_and, hP j, Finset.notMem_empty, iff_false]
      rintro (⟨h, -⟩ | ⟨h, -⟩)
      · exact ha h
      · exact hb h
    rw [e, Finset.sum_empty, if_neg ha, if_neg hb, add_zero]

end Idealize.ShloMosaic
-- ==== Proof.LibRowIndexed.lean ====
/-
  Row-indexed gathers and scatters, read at coordinates.

  A table of rows `[N, C]` (or a vector `[N]`) is addressed by a column of index words `[E, 1]`:
  * a scatter (`x.at[idx].add(u)`) lands update row `e` on table row `i` exactly when the word `idx[e, 0]`, read as a
    signed integer and NOT clamped, is `i`; a word outside `[0, N)` lands nowhere;
  * a gather (`x[idx]`) reads, for result row `e`, the table row `nodeOf idx[e, 0]`: the word read signed and clamped
    into `[0, N - 1]`.
  So the accumulating scatter at table row `i` is the operand plus the sum over the edges `e` with `idx[e, 0] = i`.
-/
import Idealize.ShloMosaic.PureOps.Ideal
import Idealize.ShloMosaic.Lib.ValueIdx
import Idealize.ShloMosaic.Lib.Pipeline.Value
import proofs.«143881_j43413529428079_2_alg».proof.Proof.LibScatterAdd

namespace Idealize.ShloMosaic.RowIndexed

open ValueIdx

/-- The row an index word addresses in a gather: read signed, clamped into `[0, N - 1]`. -/
def nodeOf (N : Nat) (hN : 0 < N) {w : Nat} (v : BitVec w) : Fin N := ⟨min v.toInt.toNat (N - 1), by omega⟩

/-! ## Scatter into a table of rows -/

/-- The dimension numbers of `x.at[idx].add(u)` for a table `[N, C]`, index words `[E, 1]`, update rows `[E, C]`. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update entry `(e, c)` lands on table entry `(i, c')` iff the index word of row `e`, read signed, is `i`, and `c = c'`. -/
theorem rowScatter_lands {N E C w : Nat} (wf) (idx : IVec ⟨2, ![E, 1]⟩ w) (e : Fin E) (c : Fin C) (i : Fin N) (c' : Fin C) :
    (rowScatter N E C wf).resultIdx? (ix2 e c) idx = some (ix2 i c') ↔ (idx (ix2 e 0)).toInt = (i.val : Int) ∧ c = c' := by
  rw [ScatterDims.resultIdx?_eq_some_iff]
  have hs0 : (rowScatter N E C wf).start (ix2 e c) idx 0 = (idx (ix2 e 0)).toInt := by
    unfold ScatterDims.start
    rw [dif_pos (show (0 : Fin 2) ∈ (rowScatter N E C wf).scatterDimsToOperandDims from List.mem_singleton.mpr rfl)]
    congr 2
    funext b
    refine Fin.ext ?_
    match b with
    | ⟨0, _⟩ => rfl
    | ⟨1, _⟩ => rfl
  have hs1 : (rowScatter N E C wf).start (ix2 e c) idx 1 = 0 := by
    unfold ScatterDims.start
    rw [dif_neg (show (1 : Fin 2) ∉ ([0] : List (Fin 2)) from by decide)]
  have hw0 : (rowScatter N E C wf).window (ix2 e c) 0 = 0 := by
    unfold ScatterDims.window
    have hm : (0 : Fin 2) ∉ (rowScatter N E C wf).sKept := by
      show (0 : Fin 2) ∉ (List.finRange 2).filter (· ∉ ([0] : List (Fin 2)))
      decide
    rw [dif_neg hm]
  have hw1 : (rowScatter N E C wf).window (ix2 e c) 1 = c.val := by
    unfold ScatterDims.window
    have hm : (1 : Fin 2) ∈ (rowScatter N E C wf).sKept := by
      show (1 : Fin 2) ∈ (List.finRange 2).filter (· ∉ ([0] : List (Fin 2)))
      decide
    rw [dif_pos hm]
    rfl
  constructor
  · intro h
    have h0 := h 0
    have h1 := h 1
    rw [hs0, hw0] at h0
    rw [hs1, hw1] at h1
    have e0 : (((ix2 i c' : (⟨2, ![N, C]⟩ : Shape).Idx) 0).val : Int) = (i.val : Int) := rfl
    have e1 : (((ix2 i c' : (⟨2, ![N, C]⟩ : Shape).Idx) 1).val : Int) = (c'.val : Int) := rfl
    refine ⟨by omega, Fin.ext (by omega)⟩
  · rintro ⟨h0, rfl⟩ a
    match a with
    | ⟨0, _⟩ => show (rowScatter N E C wf).start (ix2 e c) idx 0 + ((rowScatter N E C wf).window (ix2 e c) 0 : Int) = _; rw [hs0, hw0, h0]; simp
    | ⟨1, _⟩ => show (rowScatter N E C wf).start (ix2 e c) idx 1 + ((rowScatter N E C wf).window (ix2 e c) 1 : Int) = _; rw [hs1, hw1]; simp

/-- The accumulating scatter at table entry `(i, c)`: the operand there plus the update entries `(e, c)` of the edges
    `e` whose index word is `i`. -/
theorem rowScatter_add_apply {N E C w : Nat} (wf) (x : (⟨2, ![N, C]⟩ : Shape).Idx → EReal) (idx : IVec ⟨2, ![E, 1]⟩ w)
    (upd : (⟨2, ![E, C]⟩ : Shape).Idx → EReal) (i : Fin N) (c : Fin C) :
    Ideal.hostScatterAdd (rowScatter N E C wf) x idx upd (ix2 i c)
      = x (ix2 i c) + ∑ e ∈ Finset.univ.filter (fun e : Fin E => (idx (ix2 e 0)).toInt = (i.val : Int)), upd (ix2 e c) := by
  unfold Ideal.hostScatterAdd
  congr 1
  rw [Finset.sum_filter, sum_idx2, Finset.sum_filter]
  refine Finset.sum_congr rfl fun e _ => ?_
  simp only [rowScatter_lands]
  by_cases h : (idx (ix2 e 0)).toInt = (i.val : Int)
  · simp only [h, true_and, if_true]
    rw [Finset.sum_ite_eq' Finset.univ c (fun c' => upd (ix2 e c'))]
    simp
  · simp only [h, false_and, if_false]
    exact Finset.sum_const_zero

/-! ## Scatter into a vector -/

/-- The dimension numbers of `x.at[idx].add(u)` for a vector `[N]`, index words `[E, 1]`, updates `[E]`. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on vector entry `i` iff the index word of row `e`, read signed, is `i`. -/
theorem vecScatter_lands {N E w : Nat} (wf) (idx : IVec ⟨2, ![E, 1]⟩ w) (e : Fin E) (i : Fin N) :
    (vecScatter N E wf).resultIdx? (ix1 e) idx = some (ix1 i) ↔ (idx (ix2 e 0)).toInt = (i.val : Int) := by
  rw [ScatterDims.resultIdx?_eq_some_iff]
  have hs0 : (vecScatter N E wf).start (ix1 e) idx 0 = (idx (ix2 e 0)).toInt := by
    unfold ScatterDims.start
    rw [dif_pos (show (0 : Fin 1) ∈ (vecScatter N E wf).scatterDimsToOperandDims from List.mem_singleton.mpr rfl)]
    congr 2
    funext b
    refine Fin.ext ?_
    match b with
    | ⟨0, _⟩ => rfl
    | ⟨1, _⟩ => rfl
  have hw0 : (vecScatter N E wf).window (ix1 e) 0 = 0 := by
    unfold ScatterDims.window
    have hm : (0 : Fin 1) ∉ (vecScatter N E wf).sKept := by
      show (0 : Fin 1) ∉ (List.finRange 1).filter (· ∉ ([0] : List (Fin 1)))
      decide
    rw [dif_neg hm]
  have e0 : (((ix1 i : (⟨1, ![N]⟩ : Shape).Idx) 0).val : Int) = (i.val : Int) := rfl
  constructor
  · intro h
    have h0 := h 0
    rw [hs0, hw0] at h0
    omega
  · intro h0 a
    obtain rfl : a = 0 := Subsingleton.elim _ _
    rw [hs0, hw0, h0]; omega

/-- A sum over the index set of a vector is the sum over its one coordinate. -/
theorem sum_idx1 {M : Type*} [AddCommMonoid M] {n : Nat} (f : (⟨1, ![n]⟩ : Shape).Idx → M) :
    ∑ i, f i = ∑ a : Fin n, f (ix1 a) :=
  (Fintype.sum_equiv (⟨fun i => i 0, ix1, fun i => (eq_ix1 i).symm, fun _ => rfl⟩ : (⟨1, ![n]⟩ : Shape).Idx ≃ Fin n)
    f (fun a => f (ix1 a)) (fun i => congrArg f (eq_ix1 i)))

/-- The accumulating scatter at vector entry `i`: the operand there plus the updates of the edges whose index word is `i`. -/
theorem vecScatter_add_apply {N E w : Nat} (wf) (x : (⟨1, ![N]⟩ : Shape).Idx → EReal) (idx : IVec ⟨2, ![E, 1]⟩ w)
    (upd : (⟨1, ![E]⟩ : Shape).Idx → EReal) (i : Fin N) :
    Ideal.hostScatterAdd (vecScatter N E wf) x idx upd (ix1 i)
      = x (ix1 i) + ∑ e ∈ Finset.univ.filter (fun e : Fin E => (idx (ix2 e 0)).toInt = (i.val : Int)), upd (ix1 e) := by
  unfold Ideal.hostScatterAdd
  congr 1
  rw [Finset.sum_filter, sum_idx1, Finset.sum_filter]
  refine Finset.sum_congr rfl fun e _ => ?_
  simp only [vecScatter_lands]

/-! ## Gathers of rows and of vector entries -/

/-- The dimension numbers of `x[idx]` for a table `[N, C]` and index words `[E, 1]`: whole rows, `[E, C]`. -/
abbrev rowGather (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result entry `(e, c)` of a row gather is the table's entry `(nodeOf idx[e, 0], c)`. -/
theorem rowGather_apply {α : Type} {N E C w : Nat} (hN : 0 < N) (wf) (x : (⟨2, ![N, C]⟩ : Shape).Idx → α)
    (idx : IVec ⟨2, ![E, 1]⟩ w) (e : Fin E) (c : Fin C) :
    Host.gather (rowGather N E C wf) x idx (ix2 e c) = x (ix2 (nodeOf N hN (idx (ix2 e 0))) c) := by
  unfold Host.gather
  congr 1
  funext a
  refine Fin.ext ?_
  match a with
  | ⟨0, _⟩ =>
    show (rowGather N E C wf).start (ix2 e c) idx 0 + (rowGather N E C wf).batchCoord (ix2 e c) 0 + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1 + (rowGather N E C wf).offCoord (ix2 e c) 1 = c.val
    rw [GatherDims.batchCoord_eq_zero _ _ _ List.not_mem_nil]
    have hs : (rowGather N E C wf).start (ix2 e c) idx 1 = 0 := by
      unfold GatherDims.start
      rw [dif_neg (show (1 : Fin 2) ∉ ([0] : List (Fin 2)) from by decide)]
    have ho : (rowGather N E C wf).offCoord (ix2 e c) 1 = c.val := by
      unfold GatherDims.offCoord
      have hm : (1 : Fin 2) ∈ (rowGather N E C wf).sKept :=
        (GatherDims.mem_sKept _ _).mpr ⟨fun h => absurd (List.mem_singleton.mp h) (show (1 : Fin 2) ≠ 0 from by decide), List.not_mem_nil⟩
      rw [dif_pos hm]
      rfl
    rw [hs, ho]; simp

/-- The dimension numbers of `x[idx]` for a vector `[N]` and index words `[E, 1]`: entries, `[E]`. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result entry `e` of a vector gather is the vector's entry `nodeOf idx[e, 0]`. -/
theorem vecGather_apply {α : Type} {N E w : Nat} (hN : 0 < N) (wf) (x : (⟨1, ![N]⟩ : Shape).Idx → α)
    (idx : IVec ⟨2, ![E, 1]⟩ w) (e : Fin E) :
    Host.gather (vecGather N E wf) x idx (ix1 e) = x (ix1 (nodeOf N hN (idx (ix2 e 0)))) := by
  unfold Host.gather
  congr 1
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Small reads used with the above -/

/-- At the exact values the host's accumulating scatter is the sum form. -/
theorem scatterAdd_ideal {s si u : Shape} {φ : FTy} {w : Nat} (d : ScatterDims s si u) (x : FVec Ideal s φ) (idx : IVec si w)
    (upd : FVec Ideal u φ) : Host.scatterAdd d x idx upd = Ideal.hostScatterAdd d x idx upd := rfl

/-- A scalar broadcast to any shape reads the scalar everywhere. -/
theorem bcast_scalar_apply {t : Shape} {α : Type} (h : (⟨0, ![]⟩ : Shape).BroadcastsInDim t ![])
    (x : (⟨0, ![]⟩ : Shape).Idx → α) (j : t.Idx) : broadcastInDim t ![] h x j = x ix0 :=
  broadcastInDim_apply _ h x j ix0 (fun a => a.elim0)

/-- A vector of `E` entries kept as a column `[E, 1]` reads entry `e` at `(e, 0)`. -/
theorem col_apply {E : Nat} {α : Type} (h : (⟨1, ![E]⟩ : Shape).BroadcastsInDim ⟨2, ![E, 1]⟩ ![0])
    (v : (⟨1, ![E]⟩ : Shape).Idx → α) (e : Fin E) : broadcastInDim ⟨2, ![E, 1]⟩ ![0] h v (ix2 e (0 : Fin 1)) = v (ix1 e) :=
  broadcastInDim_apply _ h v (ix2 e (0 : Fin 1)) (ix1 e) (fun a => match a with
    | ⟨0, _⟩ => by
      show e.val = if E = 1 then 0 else e.val
      split
      · have := e.isLt; omega
      · rfl)

end Idealize.ShloMosaic.RowIndexed
-- ==== Proof.Edges.lean ====
/-
  The edge list as the mathematics sees it: an index word read as a signed integer is where an edge ends (a word that
  is no node id ends nowhere), and read signed and clamped into [0, N-1] it is the row a gather reads. Matrices and
  vectors stored as arrays are read through their coordinates.
-/
import proofs.«143881_j43413529428079_2_alg».proof.Proof.Spec
import proofs.«143881_j43413529428079_2_alg».proof.Proof.LibRowIndexed

noncomputable section

namespace Cert.Gcn

open Idealize.ShloMosaic Idealize.ShloMosaic.ValueIdx Idealize.ShloMosaic.RowIndexed

/-- Where each edge ends: its index word as a signed integer. -/
def dstOf (dc : IVec ⟨2, ![850000, 1]⟩ 32) : Fin EE → Int := fun e => (dc (ix2 e (0 : Fin 1))).toInt

/-- The row a gather reads for each edge: its index word signed and clamped. -/
def nodeAt (sc : IVec ⟨2, ![850000, 1]⟩ 32) : Fin EE → Fin NN := fun e => nodeOf 50000 (by decide) (sc (ix2 e (0 : Fin 1)))

/-- A stored matrix through its coordinates. -/
def mat {a b : Nat} (x : (⟨2, ![a, b]⟩ : Shape).Idx → EReal) : Fin a → Fin b → EReal := fun i k => x (ix2 i k)

/-- A stored vector through its coordinate. -/
def vec {a : Nat} (x : (⟨1, ![a]⟩ : Shape).Idx → EReal) : Fin a → EReal := fun i => x (ix1 i)

end Cert.Gcn

end
-- ==== Proof.ReadKer.lean ====
/-
  The first program's result read at one entry (i, c): it is the mathematics' `outK` of the stored inputs. Each stage is
  read at an index: the count of the edges ending at a node from the accumulating scatter of ones, dinv from the guarded
  rsqrt, what arrives at a node from the accumulating scatter of the gathered rows, the two kernels from their whole-array
  functions.
-/
import proofs.«143881_j43413529428079_2_alg».proof.Proof.KerTerm
import proofs.«143881_j43413529428079_2_alg».proof.Proof.Edges
import proofs.«143881_j43413529428079_2_alg».proof.Proof.LibKeepdimsColumn
import Idealize.ShloMosaic.Lib.ValueLayout

noncomputable section

namespace Cert.ReadKer

open Idealize.ShloMosaic Idealize.ShloMosaic.ValueIdx Idealize.ShloMosaic.RowIndexed
open Cert.KernelIdeal Cert.KernelIdeal.Facts₀ Cert.KernelIdeal.Term Cert.Gcn

variable [Cert.KernelIdeal.Facts]

/-- The count at node i. -/
theorem degV_apply (ei : Ten S2x800000 .i32) (i : Fin 50000) : degV ei (ix1 i) = deg (dstOf (col (dstW ei))) i := by
  unfold degV
  rw [scatterAdd_ideal]
  have hd : scatter_S50000_S850000x1_S850000_n_0_0_1 = vecScatter 50000 850000 scatter_S50000_S850000x1_S850000_n_0_0_1_wf := rfl
  rw [hd, vecScatter_add_apply]
  unfold deg into dstOf
  have h0 : zerosN (ix1 i) = z0 := rfl
  have h1 : ∀ e : Fin 850000, (broadcastInDim S850000 ![] bcast_S_S850000 (constant (F := Ideal) S_ .f32 0x3F800000#32)) (ix1 e) = o1 := fun e => rfl
  simp only [h0, h1]

/-- The guarded dinv formula over any count vector, at one node. -/
theorem dinv_form (dv : Ten S50000 .f32) (i : Fin 50000) :
    select (cmpf (F := Ideal) (φ := .f32) .ogt dv zerosN)
        (Host.rsqrt (F := Ideal) (φ := .f32) (maximumf (F := Ideal) (φ := .f32) dv (broadcastInDim S50000 ![] bcast_S_S50000 (constant (F := Ideal) S_ .f32 0x3F800000#32))))
        (broadcastInDim S50000 ![] bcast_S_S50000 (id (constant (F := Ideal) S_ .f32 0x00000000#32))) (ix1 i)
      = Scalar.select (gt (dv (ix1 i)) z0) (Ideal.rsqrt (max (dv (ix1 i)) o1)) z0 := rfl

/-- dinv at node i. -/
theorem dinvV_apply (ei : Ten S2x800000 .i32) (i : Fin 50000) : dinvV ei (ix1 i) = dinvK (dstOf (col (dstW ei))) i := by
  unfold dinvV
  rw [dinv_form, degV_apply]
  unfold dinvK
  rfl

/-- dinv as a column at (i, 0). -/
theorem dcol_apply (ei : Ten S2x800000 .i32) (i : Fin 50000) : dcol ei (ix2 i (0 : Fin 1)) = dinvK (dstOf (col (dstW ei))) i := by
  unfold dcol
  rw [KeepdimsColumn.shapeCast_a_a1_apply]
  exact dinvV_apply ei i

/-- What arrives at node i in channel c. -/
theorem aggV_apply (ei : Ten S2x800000 .i32) (hs : Ten S50000x128 .f32) (i : Fin 50000) (c : Fin 128) :
    aggV ei hs (ix2 i c) = z0 + ∑ e ∈ into (dstOf (col (dstW ei))) i, hs (ix2 (nodeAt (col (normW (srcW ei))) e) c) := by
  unfold aggV
  rw [scatterAdd_ideal]
  have hd : scatter_S50000x128_S850000x1_S850000x128_1_0_0_1 = rowScatter 50000 850000 128 scatter_S50000x128_S850000x1_S850000x128_1_0_0_1_wf := rfl
  have hg : gather_S50000x128_S850000x1_S850000x128_1_0_n_n_0_1_1128 = rowGather 50000 850000 128 gather_S50000x128_S850000x1_S850000x128_1_0_n_n_0_1_1128_wf := rfl
  rw [hd, rowScatter_add_apply, hg]
  unfold into dstOf nodeAt
  have h0 : zerosNC (ix2 i c) = z0 := rfl
  have h1 : ∀ e : Fin 850000, Host.gather (rowGather 50000 850000 128 gather_S50000x128_S850000x1_S850000x128_1_0_n_n_0_1_1128_wf) hs (col (normW (srcW ei))) (ix2 e c)
      = hs (ix2 (nodeOf 50000 (by decide) ((col (normW (srcW ei))) (ix2 e (0 : Fin 1)))) c) := fun e => rowGather_apply (by decide) _ hs _ e c
  simp only [h0, h1]

/-- The scale-bias-elu function at (p, q). -/
theorem postElu_apply (a : Ten S50000x128 .f32) (d : Ten S50000x1 .f32) (b : Ten S1x128 .f32) (p : Fin 50000) (q : Fin 128) :
    postElu a d b (ix2 p q) = Gcn.eluK (a (ix2 p q) * d (ix2 p (0 : Fin 1)) + b (ix2 (0 : Fin 1) q)) := rfl

/-- The matmul-and-scale function at (p, q). -/
theorem mmScale_apply (h : Ten S50000x128 .f32) (W : Ten S128x128 .f32) (d : Ten S50000x1 .f32) (p : Fin 50000) (q : Fin 128) :
    mmScale h W d (ix2 p q) = (∑ k : Fin 128, h (ix2 p k) * W (ix2 k q)) * d (ix2 p (0 : Fin 1)) := rfl

/-- One layer at (i, c). -/
theorem layerV_apply (ei : Ten S2x800000 .i32) (h : Ten S50000x128 .f32) (W : Ten S128x128 .f32) (b : Ten S128 .f32) (i : Fin 50000) (c : Fin 128) :
    layerV ei h W b (ix2 i c)
      = layerK (dstOf (col (dstW ei))) (nodeAt (col (normW (srcW ei)))) (dinvK (dstOf (col (dstW ei)))) (mat h) (mat W) (vec b) i c := by
  unfold layerV
  rw [postElu_apply, aggV_apply, dcol_apply, shapeCast_a_1a_apply]
  unfold layerK preK Gcn.prod mat vec
  simp only [mmScale_apply, dcol_apply]

/-- The result at (i, c). -/
theorem kerOut_apply (x : Ten S50000x128 .f32) (ei : Ten S2x800000 .i32) (W1 : Ten S128x128 .f32) (b1 : Ten S128 .f32)
    (W2 : Ten S128x128 .f32) (b2 : Ten S128 .f32) (i : Fin 50000) (c : Fin 128) :
    kerOut x ei W1 b1 W2 b2 (ix2 i c)
      = outK (dstOf (col (dstW ei))) (nodeAt (col (normW (srcW ei)))) (mat x) (mat W1) (vec b1) (mat W2) (vec b2) i c := by
  unfold kerOut outK
  rw [layerV_apply]
  have hin : mat (layerV ei x W1 b1)
      = layerK (dstOf (col (dstW ei))) (nodeAt (col (normW (srcW ei)))) (dinvK (dstOf (col (dstW ei)))) (mat x) (mat W1) (vec b1) := by
    funext p q
    exact layerV_apply ei x W1 b1 p q
  rw [hin]

end Cert.ReadKer

end
-- ==== Proof.Target.lean ====
/-
  An index word that holds a node id addresses that node.

  The programs read an index word w as follows: if w is negative as a signed integer they take w + N instead, and the
  result, read signed, is clamped into [0, N - 1]. When w read signed is a node id i, it is not negative, so w itself
  is taken; and i is below N, so the clamp returns i.
-/
import proofs.«143881_j43413529428079_2_alg».proof.Proof.Edges

namespace Cert.Gcn

open Idealize.ShloMosaic

/-- A word whose signed value is the node id i is normalised and clamped to i. -/
theorem norm_node (w : BitVec 32) (i : Fin 50000) (hw : w.toInt = (i.val : Int)) :
    Idealize.ShloMosaic.RowIndexed.nodeOf 50000 (by decide) (Idealize.ShloMosaic.Scalar.select (Idealize.ShloMosaic.IntOp.cmpi .slt w 0#32) (Idealize.ShloMosaic.IntOp.addi w 50000#32) w) = i := by
  have hs : w.slt 0#32 = false := by
    rw [BitVec.slt_eq_decide, BitVec.toInt_zero, hw]
    exact decide_eq_false (not_lt.2 (Int.natCast_nonneg _))
  have hc : IntOp.cmpi .slt w 0#32 ≠ 1 := by
    show BitVec.ofBool (w.slt 0#32) ≠ 1#1
    rw [hs]
    decide
  unfold Scalar.select
  rw [if_neg hc]
  apply Fin.ext
  show min w.toInt.toNat (50000 - 1) = i.val
  rw [hw, Int.toNat_natCast]
  have hi : i.val < 50000 := i.isLt
  omega

end Cert.Gcn
-- ==== Proof.LibPlainDot.lean ====
/-
  A plain matrix product computed by the host, read at an entry. For an M×K left operand and a K×N right operand
  contracted over the one shared axis (left axis 1 against right axis 0, no batch axis), the exact product has, at row r
  and column c, the value  Σ_k lhs(r, k) · rhs(k, c) — the same sum a matrix unit accumulating into zero leaves there,
  so the two agree entry by entry whatever the tiling of the rows.
-/
import proofs.«143881_j43413529428079_2_alg».proof.Proof.LibPlainMatmul

noncomputable section

namespace PlainDot

open Idealize.ShloMosaic Idealize.ShloMosaic.ValueIdx

variable {M K N : ℕ}

/-- The host's product at (r, c) is Σ_k lhs(r, k) · rhs(k, c). -/
theorem apply {φ₁ φ₂ : FTy} (prec : Option ContractPrecision) (lhs : FVec Ideal ⟨2, ![M, K]⟩ φ₁)
    (rhs : FVec Ideal ⟨2, ![K, N]⟩ φ₂) (r : Fin M) (c : Fin N) :
    Host.dotGeneral (F := Ideal) (DotDims.plain M K N) prec lhs rhs (ix2 r c)
      = ∑ k : Fin K, lhs (ix2 r k) * rhs (ix2 k c) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact PlainMatmul.lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact PlainMatmul.rhs_col _ _)
  rw [el, er]

end PlainDot

end
-- ==== Proof.LibColumnBroadcast.lean ====
/-
  A per-row quantity put back beside every entry of its row, in the host's spelling: a vector of a entries kept as an
  a × 1 column (broadcast_in_dim along axis 0) reads its entry p at (p, 0); an a × 1 column copied along its unit
  axis into an a × b matrix (broadcast_in_dim along axes 0, 1) reads, at (p, d), the column's entry p.
-/
import Idealize.ShloMosaic.Lib.ValueLayout
import Idealize.ShloMosaic.Lib.Pipeline.Value

namespace ColumnBroadcast

open Idealize.ShloMosaic Idealize.ShloMosaic.ValueIdx

variable {α : Type}

/-- A vector kept as a column reads, at (p, u), the vector at p. -/
theorem column_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) (fun ax => ?_)
  match ax with
  | ⟨0, _⟩ =>
    show p.val = if a = 1 then 0 else p.val
    have := p.isLt
    split <;> omega

/-- A column copied along its unit axis reads, at (p, d), the column at (p, 0). -/
theorem columns_apply {a b : ℕ} (w : (⟨2, ![a, 1]⟩ : Shape).Idx → α)
    (h : (⟨2, ![a, 1]⟩ : Shape).BroadcastsInDim ⟨2, ![a, b]⟩ ![0, 1]) (p : Fin a) (d : Fin b) :
    broadcastInDim ⟨2, ![a, b]⟩ ![0, 1] h w (ix2 p d) = w (ix2 p (0 : Fin 1)) := by
  refine broadcastInDim_apply ![0, 1] h w (ix2 p d) (ix2 p (0 : Fin 1)) (fun ax => ?_)
  match ax with
  | ⟨0, _⟩ =>
    show p.val = if a = 1 then 0 else p.val
    have := p.isLt
    split <;> omega
  | ⟨1, _⟩ => rfl

end ColumnBroadcast
-- ==== Proof.LibExactProduct.lean ====
/-
  The exact matrix product as one function of its two operands, entry by entry:
  (x · w)(r, c) = Σ_k x(r, k) · w(k, c) on the extended reals, for an M × K and a K × N matrix.
  The host's contraction of axis 1 against axis 0 (no batch axis) is this function, and so is a product computed row
  block by row block, whatever the tiling of the rows. Also the product plus a bias row added to every row, and the
  host's spelling of that sum: a bias vector laid out as one row, copied into every row, and added.
-/
import proofs.«143881_j43413529428079_2_alg».proof.Proof.LibPlainDot
import Idealize.ShloMosaic.Lib.ValueLayout
import Idealize.ShloMosaic.Lib.Pipeline.Value

noncomputable section

namespace ExactProduct

open Idealize.ShloMosaic Idealize.ShloMosaic.ValueIdx

/-- The exact product of an M × K matrix and a K × N matrix. -/
def mm {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem mm_apply {M K N : ℕ} (x : (⟨2, ![M, K]⟩ : Shape).Idx → EReal) (w : (⟨2, ![K, N]⟩ : Shape).Idx → EReal)
    (r : Fin M) (c : Fin N) : mm x w (ix2 r c) = ∑ k : Fin K, x (ix2 r k) * w (ix2 k c) := rfl

/-- The host's contraction of axis 1 against axis 0, no batch axis, is the exact product. -/
theorem hostDot_eq_mm {M K N : ℕ} (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32) :
    Host.dotGeneral (F := Ideal) d prec x w = mm x w := by
  subst hd
  funext i
  obtain ⟨r, c, rfl⟩ : ∃ (r : Fin M) (c : Fin N), i = ix2 r c := ⟨i 0, i 1, eq_ix2 i⟩
  exact PlainDot.apply prec x w r c

/-- The exact product plus a bias row added to every row. -/
def proj {M K N : ℕ} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => mm x w i + b (ix2 (0 : Fin 1) (i 1))

/-- A bias vector laid out as one row and copied into every row reads, at (r, c), the vector at c. -/
theorem rowOfVector_apply {M N : ℕ} (bp : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 bp) (ix2 r c) = bp (ix1 c) := by
  have hc : c.val < N := c.isLt
  refine (broadcastInDim_apply ![0, 1] h2 _ (ix2 r c) (ix2 (0 : Fin 1) c) (fun a => ?_)).trans
    (broadcastInDim_apply ![1] h1 bp (ix2 (0 : Fin 1) c) (ix1 c) (fun a => ?_))
  · match a with
    | ⟨0, _⟩ => rfl
    | ⟨1, _⟩ =>
      show c.val = if N = 1 then 0 else c.val
      split
      · omega
      · rfl
  · match a with
    | ⟨0, _⟩ =>
      show c.val = if N = 1 then 0 else c.val
      split
      · omega
      · rfl

/-- The host's product plus the bias vector copied into every row is the projection with the vector cast to a row. -/
theorem addRow_eq_proj {M K N : ℕ} (x : (⟨2, ![M, K]⟩ : Shape).Idx → EReal) (w : (⟨2, ![K, N]⟩ : Shape).Idx → EReal)
    (bp : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (F := Ideal) (φ := .f32) (mm x w) (broadcastInDim ⟨2, ![M, N]⟩ ![0, 1] h2 (broadcastInDim ⟨2, ![1, N]⟩ ![1] h1 bp))
      = proj x w (shapeCast ⟨2, ![1, N]⟩ bp hc) := by
  funext i
  obtain ⟨r, c, rfl⟩ : ∃ (r : Fin M) (c : Fin N), i = ix2 r c := ⟨i 0, i 1, eq_ix2 i⟩
  show mm x w (ix2 r c) + _ = mm x w (ix2 r c) + shapeCast ⟨2, ![1, N]⟩ bp hc (ix2 (0 : Fin 1) c)
  exact congrArg (mm x w (ix2 r c) + ·) ((rowOfVector_apply bp h1 h2 r c).trans (shapeCast_a_1a_apply bp hc (0 : Fin 1) c).symm)

end ExactProduct

end
-- ==== Proof.ReadRef.lean ====
/-
  The second program's result read at one entry (i, c): it is the mathematics' `outR` of the stored inputs. Each stage
  is read at an index: the count from the accumulating scatter of ones, dinv from the rsqrt, the per-edge factor
  dinv(source)·dinv(target) from the two gathers of dinv, a layer from the product, the gather of its rows, the scaling of
  every message, the accumulating scatter and the bias, and elu from its guarded expm1.
-/
import proofs.«143881_j43413529428079_2_alg».proof.Proof.RefTerm
import proofs.«143881_j43413529428079_2_alg».proof.Proof.Edges
import proofs.«143881_j43413529428079_2_alg».proof.Proof.Target
import proofs.«143881_j43413529428079_2_alg».proof.Proof.LibPlainDot
import proofs.«143881_j43413529428079_2_alg».proof.Proof.LibColumnBroadcast
import proofs.«143881_j43413529428079_2_alg».proof.Proof.LibExactProduct

noncomputable section

namespace Cert.ReadRef

open Idealize.ShloMosaic Idealize.ShloMosaic.ValueIdx Idealize.ShloMosaic.RowIndexed
open Cert.ReferenceIdeal Cert.ReferenceIdeal.Facts₀ Cert.ReferenceIdeal.Term Cert.Gcn

variable [Cert.ReferenceIdeal.Facts]

/-! ## Small readings, each over arbitrary arrays -/

/-- A stored matrix read through its coordinates. -/
theorem mat_apply {a b : Nat} (x : (⟨2, ![a, b]⟩ : Shape).Idx → EReal) (i : Fin a) (k : Fin b) : mat x i k = x (ix2 i k) := rfl

/-- A vector of words kept as a column reads entry e at (e, 0). -/
theorem col_form (v : Ten Ideal S850000 .i32) (e : Fin 850000) : col (F := Ideal) v (ix2 e (0 : Fin 1)) = v (ix1 e) := by
  unfold col
  exact ColumnBroadcast.column_apply v _ e (0 : Fin 1)

/-- The shifted word at an entry: w + N when w < 0, else w. -/
theorem normW_form (v : Ten Ideal S850000 .i32) (e : Fin 850000) :
    normW (F := Ideal) v (ix1 e)
      = Scalar.select (IntOp.cmpi .slt (v (ix1 e)) 0#32) (IntOp.addi (v (ix1 e)) 50000#32) (v (ix1 e)) := rfl

/-- The dinv formula over any count vector, at one node. -/
theorem dinv_form (dv : Ten Ideal S50000 .f32) (i : Fin 50000) :
    select (cmpf (F := Ideal) (φ := .f32) .ogt dv (zerosN (F := Ideal)))
        (Host.rsqrt (F := Ideal) (φ := .f32) dv)
        (broadcastInDim S50000 ![] bcast_S_S50000 (id (constant (F := Ideal) S_ .f32 0x00000000#32))) (ix1 i)
      = Scalar.select (gt (dv (ix1 i)) z0) (Ideal.rsqrt (dv (ix1 i))) z0 := rfl

/-- elu at an entry. -/
theorem eluV_apply (o : Ten Ideal S50000x128 .f32) (j : S50000x128.Idx) : eluV (F := Ideal) o j = eluR (o j) := rfl

/-- The host's product at (s, c). -/
theorem dot_apply (h : Ten Ideal S50000x128 .f32) (W : Ten Ideal S128x128 .f32) (s : Fin 50000) (c : Fin 128) :
    Host.dotGeneral (F := Ideal) (φ₁ := .f32) (φ₂ := .f32) dot_S50000x128_S128x128_S50000x128_1_0_0_1_n_n none h W (ix2 s c) = prod (mat h) (mat W) s c := by
  have hd : dot_S50000x128_S128x128_S50000x128_1_0_0_1_n_n = DotDims.plain 50000 128 128 := rfl
  rw [hd]
  exact PlainDot.apply none h W s c

/-- The accumulating scatter of any messages along any index column, plus the bias, at (i, c). -/
theorem pre_form (idx : Ten Ideal S850000x1 .i32) (msg : Ten Ideal S850000x128 .f32) (b : Ten Ideal S128 .f32) (i : Fin 50000) (c : Fin 128) :
    addf (F := Ideal) (φ := .f32)
        (Host.scatterAdd (F := Ideal) (φ := .f32) scatter_S50000x128_S850000x1_S850000x128_1_0_0_1 (zerosNC (F := Ideal)) idx msg)
        (broadcastInDim S50000x128 ![0, 1] bcast_S1x128_S50000x128_0_1 (broadcastInDim S1x128 ![1] bcast_S128_S1x128_1 b)) (ix2 i c)
      = (z0 + ∑ e ∈ into (dstOf idx) i, msg (ix2 e c)) + vec b c := by
  have hd : scatter_S50000x128_S850000x1_S850000x128_1_0_0_1 = rowScatter 50000 850000 128 scatter_S50000x128_S850000x1_S850000x128_1_0_0_1_wf := rfl
  rw [addf_apply, scatterAdd_ideal, hd, rowScatter_add_apply, ExactProduct.rowOfVector_apply]
  unfold into dstOf vec
  have h0 : zerosNC (F := Ideal) (ix2 i c) = z0 := rfl
  simp only [h0]

/-! ## The stages -/

/-- The count at node i. -/
theorem degV_apply (ei : Ten Ideal S2x800000 .i32) (i : Fin 50000) : degV (F := Ideal) ei (ix1 i) = deg (dstOf (col (dstW ei))) i := by
  unfold degV
  rw [scatterAdd_ideal]
  have hd : scatter_S50000_S850000x1_S850000_n_0_0_1 = vecScatter 50000 850000 scatter_S50000_S850000x1_S850000_n_0_0_1_wf := rfl
  rw [hd, vecScatter_add_apply]
  unfold deg into dstOf
  have h0 : zerosN (F := Ideal) (ix1 i) = z0 := rfl
  have h1 : ∀ e : Fin 850000, (broadcastInDim S850000 ![] bcast_S_S850000 (constant (F := Ideal) S_ .f32 0x3F800000#32)) (ix1 e) = o1 := fun e => rfl
  simp only [h0, h1]

/-- dinv at node i. -/
theorem dinvV_apply (ei : Ten Ideal S2x800000 .i32) (i : Fin 50000) : dinvV (F := Ideal) ei (ix1 i) = dinvR (dstOf (col (dstW ei))) i := by
  unfold dinvV
  rw [dinv_form, degV_apply]
  unfold dinvR
  rfl

/-- The per-edge factor. -/
theorem nrmV_apply (ei : Ten Ideal S2x800000 .i32) (e : Fin 850000) :
    nrmV (F := Ideal) ei (ix1 e) = dinvR (dstOf (col (dstW ei))) ((nodeAt (col (normW (srcW ei)))) e) * dinvR (dstOf (col (dstW ei))) ((nodeAt (col (normW (dstW ei)))) e) := by
  have hg : gather_S50000_S850000x1_S850000_n_0_n_n_0_1_1 = vecGather 50000 850000 gather_S50000_S850000x1_S850000_n_0_n_n_0_1_1_wf := rfl
  unfold nrmV
  rw [mulf_apply, hg, vecGather_apply (by decide), vecGather_apply (by decide), dinvV_apply, dinvV_apply]
  unfold nodeAt
  rfl

/-- One message: row (source e) of the product, scaled by the per-edge factor. -/
theorem msg_apply (ei : Ten Ideal S2x800000 .i32) (h : Ten Ideal S50000x128 .f32) (W : Ten Ideal S128x128 .f32) (e : Fin 850000) (c : Fin 128) :
    mulf (F := Ideal) (φ := .f32)
        (Host.gather gather_S50000x128_S850000x1_S850000x128_1_0_n_n_0_1_1128 (Host.dotGeneral (F := Ideal) (φ₁ := .f32) (φ₂ := .f32) dot_S50000x128_S128x128_S50000x128_1_0_0_1_n_n none h W) (col (normW (srcW ei))))
        (broadcastInDim S850000x128 ![0, 1] bcast_S850000x1_S850000x128_0_1 (broadcastInDim S850000x1 ![0] bcast_S850000_S850000x1_0 (nrmV (F := Ideal) ei))) (ix2 e c)
      = prod (mat h) (mat W) ((nodeAt (col (normW (srcW ei)))) e) c * (dinvR (dstOf (col (dstW ei))) ((nodeAt (col (normW (srcW ei)))) e) * dinvR (dstOf (col (dstW ei))) ((nodeAt (col (normW (dstW ei)))) e)) := by
  have hg : gather_S50000x128_S850000x1_S850000x128_1_0_n_n_0_1_1128 = rowGather 50000 850000 128 gather_S50000x128_S850000x1_S850000x128_1_0_n_n_0_1_1128_wf := rfl
  rw [mulf_apply, hg, rowGather_apply (by decide), ColumnBroadcast.columns_apply, ColumnBroadcast.column_apply, nrmV_apply, dot_apply]
  unfold nodeAt
  rfl

/-- A layer before elu at (i, c). -/
theorem preV_apply (ei : Ten Ideal S2x800000 .i32) (h : Ten Ideal S50000x128 .f32) (W : Ten Ideal S128x128 .f32) (b : Ten Ideal S128 .f32)
    (i : Fin 50000) (c : Fin 128) :
    preV (F := Ideal) ei h W b (ix2 i c) = preR (dstOf (col (dstW ei))) (nodeAt (col (normW (srcW ei)))) (nodeAt (col (normW (dstW ei)))) (dinvR (dstOf (col (dstW ei)))) (mat h) (mat W) (vec b) i c := by
  unfold preV
  rw [pre_form]
  unfold preR
  have h1 := fun e : Fin 850000 => msg_apply ei h W e c
  simp only [h1]

/-- One layer at (i, c). -/
theorem layerV_apply (ei : Ten Ideal S2x800000 .i32) (h : Ten Ideal S50000x128 .f32) (W : Ten Ideal S128x128 .f32) (b : Ten Ideal S128 .f32)
    (i : Fin 50000) (c : Fin 128) :
    layerV (F := Ideal) ei h W b (ix2 i c) = layerR (dstOf (col (dstW ei))) (nodeAt (col (normW (srcW ei)))) (nodeAt (col (normW (dstW ei)))) (dinvR (dstOf (col (dstW ei)))) (mat h) (mat W) (vec b) i c := by
  unfold layerV layerR
  rw [eluV_apply, preV_apply]

/-- The result at (i, c). -/
theorem refOut_apply (x : Ten Ideal S50000x128 .f32) (ei : Ten Ideal S2x800000 .i32) (W1 : Ten Ideal S128x128 .f32) (b1 : Ten Ideal S128 .f32)
    (W2 : Ten Ideal S128x128 .f32) (b2 : Ten Ideal S128 .f32) (i : Fin 50000) (c : Fin 128) :
    refOut (F := Ideal) x ei W1 b1 W2 b2 (ix2 i c)
      = outR (dstOf (col (dstW ei))) (nodeAt (col (normW (srcW ei)))) (nodeAt (col (normW (dstW ei)))) (mat x) (mat W1) (vec b1) (mat W2) (vec b2) i c := by
  unfold refOut outR
  rw [layerV_apply]
  have hin : mat (layerV (F := Ideal) ei x W1 b1) = layerR (dstOf (col (dstW ei))) (nodeAt (col (normW (srcW ei)))) (nodeAt (col (normW (dstW ei)))) (dinvR (dstOf (col (dstW ei)))) (mat x) (mat W1) (vec b1) := by
    funext p q
    rw [mat_apply]
    exact layerV_apply ei x W1 b1 p q
  rw [hin]

/-- An edge that ends at node i reads dinv at node i for its end: a node id is not negative, so it is not shifted, and it
    is below N, so it is not clamped. -/
theorem target_eq (ei : Ten Ideal S2x800000 .i32) (i : Fin 50000) (e : Fin 850000) (he : e ∈ into (dstOf (col (dstW ei))) i) :
    nodeAt (col (normW (dstW ei))) e = i := by
  have hw : dstOf (col (dstW ei)) e = (i.val : Int) := (Finset.mem_filter.1 he).2
  unfold dstOf at hw
  rw [col_form] at hw
  unfold nodeAt
  rw [col_form, normW_form]
  exact norm_node _ i hw

end Cert.ReadRef

end
-- ==== Proof.Bridge.lean ====
/-
  The two programs' results are one array. At every entry (i, c) the first program's term is the mathematics' `outK` and
  the second's is `outR` of the same stored inputs over the same edge list; the two agree because an edge that ends at a
  node reads dinv at that node for its end.
-/
import proofs.«143881_j43413529428079_2_alg».proof.Proof.ReadKer
import proofs.«143881_j43413529428079_2_alg».proof.Proof.ReadRef

noncomputable section

namespace Cert.Bridge

open Idealize.ShloMosaic Idealize.ShloMosaic.ValueIdx Cert.Gcn

variable [Cert.KernelIdeal.Facts] [Cert.ReferenceIdeal.Facts]

/-- Both programs build the column of destination words by the same operations. -/
theorem dst_col_eq (ei : Cert.KernelIdeal.Term.Ten Cert.KernelIdeal.S2x800000 .i32) :
    Cert.KernelIdeal.Term.col (Cert.KernelIdeal.Term.dstW ei)
      = Cert.ReferenceIdeal.Term.col (F := Ideal) (Cert.ReferenceIdeal.Term.dstW (F := Ideal) ei) := rfl

/-- Both programs build the column of source rows by the same operations. -/
theorem src_col_eq (ei : Cert.KernelIdeal.Term.Ten Cert.KernelIdeal.S2x800000 .i32) :
    Cert.KernelIdeal.Term.col (Cert.KernelIdeal.Term.normW (Cert.KernelIdeal.Term.srcW ei))
      = Cert.ReferenceIdeal.Term.col (F := Ideal) (Cert.ReferenceIdeal.Term.normW (F := Ideal) (Cert.ReferenceIdeal.Term.srcW (F := Ideal) ei)) := rfl

/-- The first program's result array is the second's. -/
theorem out_eq (x : Cert.KernelIdeal.Term.Ten Cert.KernelIdeal.S50000x128 .f32) (ei : Cert.KernelIdeal.Term.Ten Cert.KernelIdeal.S2x800000 .i32)
    (W1 : Cert.KernelIdeal.Term.Ten Cert.KernelIdeal.S128x128 .f32) (b1 : Cert.KernelIdeal.Term.Ten Cert.KernelIdeal.S128 .f32)
    (W2 : Cert.KernelIdeal.Term.Ten Cert.KernelIdeal.S128x128 .f32) (b2 : Cert.KernelIdeal.Term.Ten Cert.KernelIdeal.S128 .f32) :
    Cert.KernelIdeal.Term.kerOut x ei W1 b1 W2 b2 = Cert.ReferenceIdeal.Term.refOut (F := Idealize.ShloMosaic.Ideal) x ei W1 b1 W2 b2 := by
  funext j
  obtain ⟨i, c, rfl⟩ : ∃ (i : Fin 50000) (c : Fin 128), j = ix2 i c := ⟨j 0, j 1, eq_ix2 j⟩
  rw [Cert.ReadKer.kerOut_apply, Cert.ReadRef.refOut_apply, dst_col_eq, src_col_eq]
  exact congrFun (congrFun (Cert.Gcn.out_eq _ _ _ (fun i e he => Cert.ReadRef.target_eq ei i e he) _ _ _ _ _) i) c

end Cert.Bridge

end
-- ==== Proof.lean ====
/-
  Two programs compute one two-layer graph convolution over a list of edges with a self loop added per node. Each
  layer multiplies the node features by a weight matrix, sends the rows along the edges scaled by the inverse square
  roots of the end-point degrees, sums what arrives at each node, adds a bias and applies elu. One program scales a
  row by deg^(-1/2) at its source before sending and by deg^(-1/2) at its target after summing; the other scales every
  message by the product of the two factors and then sums. On the extended reals the two are the same function of the
  inputs: the target's factor is a non-negative real, which distributes over the finite sum, and a positive count of
  edges is at least one, so guarding the count by max(·, 1) changes nothing.
-/
import proofs.«143881_j43413529428079_2_alg».proof.Defs
import proofs.«143881_j43413529428079_2_alg».proof.Proof.Gen.Kernel
import proofs.«143881_j43413529428079_2_alg».proof.Proof.Gen.Kernel.Skeleton
import proofs.«143881_j43413529428079_2_alg».proof.Proof.Gen.Kernel.Launch
import proofs.«143881_j43413529428079_2_alg».proof.Proof.Gen.Kernel.Points
import proofs.«143881_j43413529428079_2_alg».proof.Proof.Gen.Kernel.Frame
import proofs.«143881_j43413529428079_2_alg».proof.Proof.Gen.KernelIdeal
import proofs.«143881_j43413529428079_2_alg».proof.Proof.Gen.KernelIdeal.Skeleton
import proofs.«143881_j43413529428079_2_alg».proof.Proof.Gen.KernelIdeal.Launch
import proofs.«143881_j43413529428079_2_alg».proof.Proof.Gen.KernelIdeal.Points
import proofs.«143881_j43413529428079_2_alg».proof.Proof.Gen.KernelIdeal.Frame
import proofs.«143881_j43413529428079_2_alg».proof.Proof.Gen.ReferenceIdeal
import proofs.«143881_j43413529428079_2_alg».proof.Proof.Gen.Pre_finite_inputs
import proofs.«143881_j43413529428079_2_alg».proof.Proof.KerRun
import proofs.«143881_j43413529428079_2_alg».proof.Proof.RefRun
import proofs.«143881_j43413529428079_2_alg».proof.Proof.Bridge
import Idealize.ShloMosaic.Adequacy
import Idealize.ShloMosaic.Init

noncomputable section

namespace Cert.Proof

open Idealize.ShloMosaic Idealize.SL.Sem

/-- The first program runs and leaves its arguments as they were. -/
theorem frame_kernel : Cert.frame_Kernel := fun m ρ _ => Cert.Kernel.Gen.frame m ρ

/-- So does it read at the extended reals. -/
theorem frame_kernelIdeal : Cert.frame_KernelIdeal := fun m ρ _ => Cert.KernelIdeal.Gen.frame m ρ

/-- The second program runs and leaves its arguments as they were. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From arguments that agree, the two programs end at equal results: each result is a term of the arguments, and the
    two terms are one function. -/
theorem algebraic : Cert.algebraic_KernelIdeal_ReferenceIdeal := by
  intro m ρ m' ρ' _ hagree
  refine ⟨fun c => Cert.KernelIdeal.Term.kerOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Val.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5⟩ := hagree c
  rw [h0, h1, h2, h3, h4, h5]
  exact (Cert.Bridge.out_eq _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
